-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1048576x16x2 : Shape := ⟨3, ![1048576, 16, 2]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1048576x16x2 : S_.BroadcastsInDim S1048576x16x2 (![] : Fin 0 → Fin S1048576x16x2.rank)
  reducesTo_S1048576x16x2_S_d0_1_2 : S1048576x16x2.ReducesTo [0, 1, 2] S_

variable [Facts]

def fn {F : FTy → Type} [FloatOps F] (main_arg0 : FVec F S16x1024x1024 .f32) (main_arg1 : FVec F S1048576x16x2 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S1048576x16x2 .f32 := Host.absf main_arg1
  let main_cst_0 : FVec F S_ .f32 := constant S_ .f32 0x7F800000#32
  let main_v5 : FVec F S1048576x16x2 .f32 := broadcastInDim S1048576x16x2 ![] bcast_S_S1048576x16x2 main_cst_0
  let main_v6 : IVec S1048576x16x2 1 := cmpf .olt main_v4 main_v5
  let main_c_1 : IVec S_ 1 := constantI S_ 1 1#1
  let main_v7 : IVec S_ 1 := (fun x v => Host.reduce IntOp.andi x v reducesTo_S1048576x16x2_S_d0_1_2 h_S_) main_v6 main_c_1
  let main_v8 : IVec S_ 1 := andi main_v3 main_v7
  main_v8
-- ==== Kernel.lean ====
abbrev S16x1024x1024 : Shape := ⟨3, ![16, 1024, 1024]⟩
abbrev S1048576x16x2 : Shape := ⟨3, ![1048576, 16, 2]⟩
abbrev S1048576x16 : Shape := ⟨2, ![1048576, 16]⟩
abbrev S256x16x2 : Shape := ⟨3, ![256, 16, 2]⟩
abbrev S256x16 : Shape := ⟨2, ![256, 16]⟩
abbrev S256x1024 : Shape := ⟨2, ![256, 1024]⟩
abbrev S256x1x2 : Shape := ⟨3, ![256, 1, 2]⟩
abbrev S256x2 : Shape := ⟨2, ![256, 2]⟩
abbrev S256x1 : Shape := ⟨2, ![256, 1]⟩
abbrev S1x1024x1024 : Shape := ⟨3, ![1, 1024, 1024]⟩
abbrev S1024x1024 : Shape := ⟨2, ![1024, 1024]⟩
abbrev S256 : Shape := ⟨1, ![256]⟩

abbrev nBuf : Space → Nat
  | .hbm => 4
  | .vmem => 5
  | .smem => 0
  | _ => 0

abbrev bufTy : (tb : Table) → Fin (tcTables nBuf tb) → BufTy
  | .hbm, ⟨0, _⟩ => ⟨S16x1024x1024, .f32⟩
  | .hbm, ⟨1, _⟩ => ⟨S1048576x16x2, .f32⟩
  | .hbm, ⟨2, _⟩ => ⟨S16x1024x1024, .bf16⟩
  | .hbm, ⟨3, _⟩ => ⟨S1048576x16, .f32⟩
  | .local _ .vmem, ⟨0, _⟩ => ⟨S256x16x2, .f32⟩
  | .local _ .vmem, ⟨1, _⟩ => ⟨S256x16x2, .f32⟩
  | .local _ .vmem, ⟨2, _⟩ => ⟨S16x1024x1024, .bf16⟩
  | .local _ .vmem, ⟨3, _⟩ => ⟨S256x16, .f32⟩
  | .local _ .vmem, ⟨4, _⟩ => ⟨S256x16, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4096], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S256x16x2_S256x16x2_0_0_0 : ∀ a, (![0, 0, 0] : Fin 3 → Nat) a + S256x16x2.size a ≤ S256x16x2.size a
  h_S256x16x2 : 0 < S256x16x2.numel
  iota_S256x1024_d1_w32 : S256x1024.Iotas .tc 32 [1]
  slices_S256x16x2_o0_0_0_S256x1x2 : S256x16x2.Slices ![0, 0, 0] S256x1x2
  shapeCasts_S256x1x2_S256x2 : S256x1x2.ShapeCasts S256x2
  slices_S256x2_o0_0_S256x1 : S256x2.Slices ![0, 0] S256x1
  slices_S256x2_o0_1_S256x1 : S256x2.Slices ![0, 1] S256x1
  broadcasts_S256x1_S256x1024 : S256x1.Broadcasts S256x1024
  shapeCasts_S256x1_S256x1 : S256x1.ShapeCasts S256x1
  inb_S16x1024x1024_S1x1024x1024_0_0_0 : ∀ a, (![0, 0, 0] : Fin 3 → Nat) a + S1x1024x1024.size a ≤ S16x1024x1024.size a
  h_S1x1024x1024 : 0 < S1x1024x1024.numel
  shapeCasts_S1x1024x1024_S1024x1024 : S1x1024x1024.ShapeCasts S1024x1024
  reduces_S256x1024_S256 : S256x1024.Reduces [1] S256
  shapeCasts_S256_S256x1 : S256.ShapeCasts S256x1
  inb_S256x16_S256x1_0_0 : ∀ a, (![0, 0] : Fin 2 → Nat) a + S256x1.size a ≤ S256x16.size a
  h_S256x1 : 0 < S256x1.numel
  slices_S256x16x2_o0_1_0_S256x1x2 : S256x16x2.Slices ![0, 1, 0] S256x1x2
  inb_S16x1024x1024_S1x1024x1024_1_0_0 : ∀ a, (![1, 0, 0] : Fin 3 → Nat) a + S1x1024x1024.size a ≤ S16x1024x1024.size a
  inb_S256x16_S256x1_0_1 : ∀ a, (![0, 1] : Fin 2 → Nat) a + S256x1.size a ≤ S256x16.size a
  slices_S256x16x2_o0_2_0_S256x1x2 : S256x16x2.Slices ![0, 2, 0] S256x1x2
  inb_S16x1024x1024_S1x1024x1024_2_0_0 : ∀ a, (![2, 0, 0] : Fin 3 → Nat) a + S1x1024x1024.size a ≤ S16x1024x1024.size a
  inb_S256x16_S256x1_0_2 : ∀ a, (![0, 2] : Fin 2 → Nat) a + S256x1.size a ≤ S256x16.size a
  slices_S256x16x2_o0_3_0_S256x1x2 : S256x16x2.Slices ![0, 3, 0] S256x1x2
  inb_S16x1024x1024_S1x1024x1024_3_0_0 : ∀ a, (![3, 0, 0] : Fin 3 → Nat) a + S1x1024x1024.size a ≤ S16x1024x1024.size a
  inb_S256x16_S256x1_0_3 : ∀ a, (![0, 3] : Fin 2 → Nat) a + S256x1.size a ≤ S256x16.size a
  slices_S256x16x2_o0_4_0_S256x1x2 : S256x16x2.Slices ![0, 4, 0] S256x1x2
  inb_S16x1024x1024_S1x1024x1024_4_0_0 : ∀ a, (![4, 0, 0] : Fin 3 → Nat) a + S1x1024x1024.size a ≤ S16x1024x1024.size a
  inb_S256x16_S256x1_0_4 : ∀ a, (![0, 4] : Fin 2 → Nat) a + S256x1.size a ≤ S256x16.size a
  slices_S256x16x2_o0_5_0_S256x1x2 : S256x16x2.Slices ![0, 5, 0] S256x1x2
  inb_S16x1024x1024_S1x1024x1024_5_0_0 : ∀ a, (![5, 0, 0] : Fin 3 → Nat) a + S1x1024x1024.size a ≤ S16x1024x1024.size a
  inb_S256x16_S256x1_0_5 : ∀ a, (![0, 5] : Fin 2 → Nat) a + S256x1.size a ≤ S256x16.size a
  slices_S256x16x2_o0_6_0_S256x1x2 : S256x16x2.Slices ![0, 6, 0] S256x1x2
  inb_S16x1024x1024_S1x1024x1024_6_0_0 : ∀ a, (![6, 0, 0] : Fin 3 → Nat) a + S1x1024x1024.size a ≤ S16x1024x1024.size a
  inb_S256x16_S256x1_0_6 : ∀ a, (![0, 6] : Fin 2 → Nat) a + S256x1.size a ≤ S256x16.size a
  slices_S256x16x2_o0_7_0_S256x1x2 : S256x16x2.Slices ![0, 7, 0] S256x1x2
  inb_S16x1024x1024_S1x1024x1024_7_0_0 : ∀ a, (![7, 0, 0] : Fin 3 → Nat) a + S1x1024x1024.size a ≤ S16x1024x1024.size a
  inb_S256x16_S256x1_0_7 : ∀ a, (![0, 7] : Fin 2 → Nat) a + S256x1.size a ≤ S256x16.size a
  slices_S256x16x2_o0_8_0_S256x1x2 : S256x16x2.Slices ![0, 8, 0] S256x1x2
  inb_S16x1024x1024_S1x1024x1024_8_0_0 : ∀ a, (![8, 0, 0] : Fin 3 → Nat) a + S1x1024x1024.size a ≤ S16x1024x1024.size a
  inb_S256x16_S256x1_0_8 : ∀ a, (![0, 8] : Fin 2 → Nat) a + S256x1.size a ≤ S256x16.size a
  slices_S256x16x2_o0_9_0_S256x1x2 : S256x16x2.Slices ![0, 9, 0] S256x1x2
  inb_S16x1024x1024_S1x1024x1024_9_0_0 : ∀ a, (![9, 0, 0] : Fin 3 → Nat) a + S1x1024x1024.size a ≤ S16x1024x1024.size a
  inb_S256x16_S256x1_0_9 : ∀ a, (![0, 9] : Fin 2 → Nat) a + S256x1.size a ≤ S256x16.size a
  slices_S256x16x2_o0_10_0_S256x1x2 : S256x16x2.Slices ![0, 10, 0] S256x1x2
  inb_S16x1024x1024_S1x1024x1024_10_0_0 : ∀ a, (![10, 0, 0] : Fin 3 → Nat) a + S1x1024x1024.size a ≤ S16x1024x1024.size a
  inb_S256x16_S256x1_0_10 : ∀ a, (![0, 10] : Fin 2 → Nat) a + S256x1.size a ≤ S256x16.size a
  slices_S256x16x2_o0_11_0_S256x1x2 : S256x16x2.Slices ![0, 11, 0] S256x1x2
  inb_S16x1024x1024_S1x1024x1024_11_0_0 : ∀ a, (![11, 0, 0] : Fin 3 → Nat) a + S1x1024x1024.size a ≤ S16x1024x1024.size a
  inb_S256x16_S256x1_0_11 : ∀ a, (![0, 11] : Fin 2 → Nat) a + S256x1.size a ≤ S256x16.size a
  slices_S256x16x2_o0_12_0_S256x1x2 : S256x16x2.Slices ![0, 12, 0] S256x1x2
  inb_S16x1024x1024_S1x1024x1024_12_0_0 : ∀ a, (![12, 0, 0] : Fin 3 → Nat) a + S1x1024x1024.size a ≤ S16x1024x1024.size a
  inb_S256x16_S256x1_0_12 : ∀ a, (![0, 12] : Fin 2 → Nat) a + S256x1.size a ≤ S256x16.size a
  slices_S256x16x2_o0_13_0_S256x1x2 : S256x16x2.Slices ![0, 13, 0] S256x1x2
  inb_S16x1024x1024_S1x1024x1024_13_0_0 : ∀ a, (![13, 0, 0] : Fin 3 → Nat) a + S1x1024x1024.size a ≤ S16x1024x1024.size a
  inb_S256x16_S256x1_0_13 : ∀ a, (![0, 13] : Fin 2 → Nat) a + S256x1.size a ≤ S256x16.size a
  slices_S256x16x2_o0_14_0_S256x1x2 : S256x16x2.Slices ![0, 14, 0] S256x1x2
  inb_S16x1024x1024_S1x1024x1024_14_0_0 : ∀ a, (![14, 0, 0] : Fin 3 → Nat) a + S1x1024x1024.size a ≤ S16x1024x1024.size a
  inb_S256x16_S256x1_0_14 : ∀ a, (![0, 14] : Fin 2 → Nat) a + S256x1.size a ≤ S256x16.size a
  slices_S256x16x2_o0_15_0_S256x1x2 : S256x16x2.Slices ![0, 15, 0] S256x1x2
  inb_S16x1024x1024_S1x1024x1024_15_0_0 : ∀ a, (![15, 0, 0] : Fin 3 → Nat) a + S1x1024x1024.size a ≤ S16x1024x1024.size a
  inb_S256x16_S256x1_0_15 : ∀ a, (![0, 15] : Fin 2 → Nat) a + S256x1.size a ≤ S256x16.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x2.size a ≤ S1048576x16x2.size a
  hwx0_0 : ∀ i : grid0.Coords, EltTy.bits .f32 = 32 ∨ (Rect.block (s := S1048576x16x2) S256x16x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024x1024.size a ≤ S16x1024x1024.size a
  hwx0_1 : ∀ i : grid0.Coords, EltTy.bits .bf16 = 32 ∨ (Rect.block (s := S16x1024x1024) S16x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S1048576x16.size a
  hwx0_2 : ∀ i : grid0.Coords, EltTy.bits .f32 = 32 ∨ (Rect.block (s := S1048576x16) S256x16.size (cc0_transform_2 i) (hinb0_2 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg1) S256x16x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1048576x16x2 : Shape := ⟨3, ![1048576, 16, 2]⟩
abbrev S1048576x16x1 : Shape := ⟨3, ![1048576, 16, 1]⟩
abbrev S1048576x16 : Shape := ⟨2, ![1048576, 16]⟩
abbrev S_ : Shape := ⟨0, ![]⟩
abbrev S16 : Shape := ⟨1, ![16]⟩
abbrev S1x16 : Shape := ⟨2, ![1, 16]⟩
abbrev S1048576x16x3 : Shape := ⟨3, ![1048576, 16, 3]⟩

abbrev nBuf : Space → Nat
  | .hbm => 233
  | .vmem => 0
  | .smem => 0
  | _ => 0

abbrev hbmTy0_0 (i : Nat) : BufTy := match i % 128 with
  | 0 => ⟨S16x1024x1024, .f32⟩
  | 1 => ⟨S1048576x16x2, .f32⟩
  | 2 => ⟨S1048576x16x1, .f32⟩
  | 3 => ⟨S1048576x16, .f32⟩
  | 4 => ⟨S_, .f32⟩
  | 5 => ⟨S1048576x16, .f32⟩
  | 6 => ⟨S1048576x16, .f32⟩
  | 7 => ⟨S1048576x16x1, .f32⟩
  | 8 => ⟨S1048576x16, .f32⟩
  | 9 => ⟨S_, .f32⟩
  | 10 => ⟨S1048576x16, .f32⟩
  | 11 => ⟨S1048576x16, .f32⟩
  | 12 => ⟨S1048576x16, .f32⟩
  | 13 => ⟨S1048576x16, .f32⟩
  | 14 => ⟨S1048576x16, .f32⟩
  | 15 => ⟨S1048576x16, .f32⟩
  | 16 => ⟨S1048576x16, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S1048576x16, .i32⟩
  | 24 => ⟨S1048576x16, .i32⟩
  | 25 => ⟨S_, .i32⟩
  | 26 => ⟨S1048576x16, .i32⟩
  | 27 => ⟨S1048576x16, .i1⟩
  | 28 => ⟨S_, .i32⟩
  | 29 => ⟨S1048576x16, .i32⟩
  | 30 => ⟨S1048576x16, .i1⟩
  | 31 => ⟨S_, .i32⟩
  | 32 => ⟨S_, .i1⟩
  | 33 => ⟨S1048576x16, .i1⟩
  | 34 => ⟨S1048576x16, .i1⟩
  | 35 => ⟨S1048576x16, .i1⟩
  | 36 => ⟨S1048576x16, .i32⟩
  | 37 => ⟨S1048576x16, .i32⟩
  | 38 => ⟨S1048576x16, .i32⟩
  | 39 => ⟨S1048576x16, .i32⟩
  | 40 => ⟨S_, .i32⟩
  | 41 => ⟨S1048576x16, .i32⟩
  | 42 => ⟨S1048576x16, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S1048576x16, .i32⟩
  | 50 => ⟨S1048576x16, .i32⟩
  | 51 => ⟨S_, .i32⟩
  | 52 => ⟨S1048576x16, .i32⟩
  | 53 => ⟨S1048576x16, .i1⟩
  | 54 => ⟨S_, .i32⟩
  | 55 => ⟨S1048576x16, .i32⟩
  | 56 => ⟨S1048576x16, .i1⟩
  | 57 => ⟨S_, .i32⟩
  | 58 => ⟨S_, .i1⟩
  | 59 => ⟨S1048576x16, .i1⟩
  | 60 => ⟨S1048576x16, .i1⟩
  | 61 => ⟨S1048576x16, .i1⟩
  | 62 => ⟨S1048576x16, .i32⟩
  | 63 => ⟨S1048576x16, .i32⟩
  | 64 => ⟨S1048576x16, .i32⟩
  | 65 => ⟨S1048576x16, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S1048576x16, .i32⟩
  | 73 => ⟨S1048576x16, .i32⟩
  | 74 => ⟨S_, .i32⟩
  | 75 => ⟨S1048576x16, .i32⟩
  | 76 => ⟨S1048576x16, .i1⟩
  | 77 => ⟨S_, .i32⟩
  | 78 => ⟨S1048576x16, .i32⟩
  | 79 => ⟨S1048576x16, .i1⟩
  | 80 => ⟨S_, .i32⟩
  | 81 => ⟨S_, .i1⟩
  | 82 => ⟨S1048576x16, .i1⟩
  | 83 => ⟨S1048576x16, .i1⟩
  | 84 => ⟨S1048576x16, .i1⟩
  | 85 => ⟨S1048576x16, .i32⟩
  | 86 => ⟨S1048576x16, .i32⟩
  | 87 => ⟨S1048576x16, .i32⟩
  | 88 => ⟨S1048576x16, .i32⟩
  | 89 => ⟨S_, .i32⟩
  | 90 => ⟨S1048576x16, .i32⟩
  | 91 => ⟨S1048576x16, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S1048576x16, .i32⟩
  | 99 => ⟨S1048576x16, .i32⟩
  | 100 => ⟨S_, .i32⟩
  | 101 => ⟨S1048576x16, .i32⟩
  | 102 => ⟨S1048576x16, .i1⟩
  | 103 => ⟨S_, .i32⟩
  | 104 => ⟨S1048576x16, .i32⟩
  | 105 => ⟨S1048576x16, .i1⟩
  | 106 => ⟨S_, .i32⟩
  | 107 => ⟨S_, .i1⟩
  | 108 => ⟨S1048576x16, .i1⟩
  | 109 => ⟨S1048576x16, .i1⟩
  | 110 => ⟨S1048576x16, .i1⟩
  | 111 => ⟨S1048576x16, .i32⟩
  | 112 => ⟨S1048576x16, .i32⟩
  | 113 => ⟨S1048576x16, .i32⟩
  | 114 => ⟨S16, .i32⟩
  | 115 => ⟨S1x16, .i32⟩
  | 116 => ⟨S_, .i32⟩
  | 117 => ⟨S1x16, .i32⟩
  | 118 => ⟨S1x16, .i1⟩
  | 119 => ⟨S_, .i32⟩
  | 120 => ⟨S1x16, .i32⟩
  | 121 => ⟨S1x16, .i32⟩
  | 122 => ⟨S1x16, .i32⟩
  | 123 => ⟨S_, .i32⟩
  | 124 => ⟨S1048576x16, .i32⟩
  | 125 => ⟨S1048576x16, .i1⟩
  | 126 => ⟨S_, .i32⟩
  | 127 => ⟨S1048576x16, .i32⟩
  | _ => ⟨S16x1024x1024, .f32⟩

abbrev hbmTy0_1 (i : Nat) : BufTy := match i % 128 with
  | 0 => ⟨S1048576x16, .i32⟩
  | 1 => ⟨S1048576x16, .i32⟩
  | 2 => ⟨S_, .i32⟩
  | 3 => ⟨S1048576x16, .i32⟩
  | 4 => ⟨S1048576x16, .i1⟩
  | 5 => ⟨S_, .i32⟩
  | 6 => ⟨S1048576x16, .i32⟩
  | 7 => ⟨S1048576x16, .i32⟩
  | 8 => ⟨S1048576x16, .i32⟩
  | 9 => ⟨S1048576x16, .i32⟩
  | 10 => ⟨S1048576x16x1, .i32⟩
  | 11 => ⟨S1048576x16x1, .i32⟩
  | 12 => ⟨S1048576x16x1, .i32⟩
  | 13 => ⟨S1048576x16x3, .i32⟩
  | 14 => ⟨S1048576x16, .f32⟩
  | 15 => ⟨S_, .i32⟩
  | 16 => ⟨S1x16, .i32⟩
  | 17 => ⟨S1x16, .i1⟩
  | 18 => ⟨S_, .i32⟩
  | 19 => ⟨S1x16, .i32⟩
  | 20 => ⟨S1x16, .i32⟩
  | 21 => ⟨S1x16, .i32⟩
  | 22 => ⟨S_, .i32⟩
  | 23 => ⟨S1048576x16, .i32⟩
  | 24 => ⟨S1048576x16, .i1⟩
  | 25 => ⟨S_, .i32⟩
  | 26 => ⟨S1048576x16, .i32⟩
  | 27 => ⟨S1048576x16, .i32⟩
  | 28 => ⟨S1048576x16, .i32⟩
  | 29 => ⟨S_, .i32⟩
  | 30 => ⟨S1048576x16, .i32⟩
  | 31 => ⟨S1048576x16, .i1⟩
  | 32 => ⟨S_, .i32⟩
  | 33 => ⟨S1048576x16, .i32⟩
  | 34 => ⟨S1048576x16, .i32⟩
  | 35 => ⟨S1048576x16, .i32⟩
  | 36 => ⟨S1048576x16, .i32⟩
  | 37 => ⟨S1048576x16x1, .i32⟩
  | 38 => ⟨S1048576x16x1, .i32⟩
  | 39 => ⟨S1048576x16x1, .i32⟩
  | 40 => ⟨S1048576x16x3, .i32⟩
  | 41 => ⟨S1048576x16, .f32⟩
  | 42 => ⟨S_, .i32⟩
  | 43 => ⟨S1x16, .i32⟩
  | 44 => ⟨S1x16, .i1⟩
  | 45 => ⟨S_, .i32⟩
  | 46 => ⟨S1x16, .i32⟩
  | 47 => ⟨S1x16, .i32⟩
  | 48 => ⟨S1x16, .i32⟩
  | 49 => ⟨S_, .i32⟩
  | 50 => ⟨S1048576x16, .i32⟩
  | 51 => ⟨S1048576x16, .i1⟩
  | 52 => ⟨S_, .i32⟩
  | 53 => ⟨S1048576x16, .i32⟩
  | 54 => ⟨S1048576x16, .i32⟩
  | 55 => ⟨S1048576x16, .i32⟩
  | 56 => ⟨S_, .i32⟩
  | 57 => ⟨S1048576x16, .i32⟩
  | 58 => ⟨S1048576x16, .i1⟩
  | 59 => ⟨S_, .i32⟩
  | 60 => ⟨S1048576x16, .i32⟩
  | 61 => ⟨S1048576x16, .i32⟩
  | 62 => ⟨S1048576x16, .i32⟩
  | 63 => ⟨S1048576x16, .i32⟩
  | 64 => ⟨S1048576x16x1, .i32⟩
  | 65 => ⟨S1048576x16x1, .i32⟩
  | 66 => ⟨S1048576x16x1, .i32⟩
  | 67 => ⟨S1048576x16x3, .i32⟩
  | 68 => ⟨S1048576x16, .f32⟩
  | 69 => ⟨S_, .i32⟩
  | 70 => ⟨S1x16, .i32⟩
  | 71 => ⟨S1x16, .i1⟩
  | 72 => ⟨S_, .i32⟩
  | 73 => ⟨S1x16, .i32⟩
  | 74 => ⟨S1x16, .i32⟩
  | 75 => ⟨S1x16, .i32⟩
  | 76 => ⟨S_, .i32⟩
  | 77 => ⟨S1048576x16, .i32⟩
  | 78 => ⟨S1048576x16, .i1⟩
  | 79 => ⟨S_, .i32⟩
  | 80 => ⟨S1048576x16, .i32⟩
  | 81 => ⟨S1048576x16, .i32⟩
  | 82 => ⟨S1048576x16, .i32⟩
  | 83 => ⟨S_, .i32⟩
  | 84 => ⟨S1048576x16, .i32⟩
  | 85 => ⟨S1048576x16, .i1⟩
  | 86 => ⟨S_, .i32⟩
  | 87 => ⟨S1048576x16, .i32⟩
  | 88 => ⟨S1048576x16, .i32⟩
  | 89 => ⟨S1048576x16, .i32⟩
  | 90 => ⟨S1048576x16, .i32⟩
  | 91 => ⟨S1048576x16x1, .i32⟩
  | 92 => ⟨S1048576x16x1, .i32⟩
  | 93 => ⟨S1048576x16x1, .i32⟩
  | 94 => ⟨S1048576x16x3, .i32⟩
  | 95 => ⟨S1048576x16, .f32⟩
  | 96 => ⟨S1048576x16, .f32⟩
  | 97 => ⟨S1048576x16, .f32⟩
  | 98 => ⟨S1048576x16, .f32⟩
  | 99 => ⟨S1048576x16, .f32⟩
  | 100 => ⟨S1048576x16, .f32⟩
  | 101 => ⟨S1048576x16, .f32⟩
  | 102 => ⟨S1048576x16, .f32⟩
  | 103 => ⟨S1048576x16, .f32⟩
  | 104 => ⟨S1048576x16, .f32⟩
  | _ => ⟨S16x1024x1024, .f32⟩

abbrev hbmTy (i : Nat) : BufTy := match i / 128 with
  | 0 => hbmTy0_0 i
  | 1 => hbmTy0_1 i
  | _ => ⟨S16x1024x1024, .f32⟩

abbrev bufTy : (tb : Table) → Fin (tcTables nBuf tb) → BufTy
  | .hbm, ⟨i, _⟩ => hbmTy i
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v13 : Ref sig .tc := ⟨.hbm, 38, rfl⟩
abbrev main_v14 : Ref sig .tc := ⟨.hbm, 39, rfl⟩
abbrev main_c_1 : Ref sig .tc := ⟨.hbm, 40, rfl⟩
abbrev main_v15 : Ref sig .tc := ⟨.hbm, 41, rfl⟩
abbrev main_v16 : Ref sig .tc := ⟨.hbm, 42, rfl⟩
abbrev main_c_2 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v17 : Ref sig .tc := ⟨.hbm, 64, rfl⟩
abbrev main_v18 : Ref sig .tc := ⟨.hbm, 65, rfl⟩
abbrev main_c_3 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_v5 : Ref sig .tc := ⟨.hbm, 75, rfl⟩
abbrev main_call2_v6 : Ref sig .tc := ⟨.hbm, 76, rfl⟩
abbrev main_call2_c_2 : Ref sig .tc := ⟨.hbm, 77, rfl⟩
abbrev main_call2_v7 : Ref sig .tc := ⟨.hbm, 78, rfl⟩
abbrev main_call2_v8 : Ref sig .tc := ⟨.hbm, 79, rfl⟩
abbrev main_call2_c_3 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_v19 : Ref sig .tc := ⟨.hbm, 87, rfl⟩
abbrev main_v20 : Ref sig .tc := ⟨.hbm, 88, rfl⟩
abbrev main_c_4 : Ref sig .tc := ⟨.hbm, 89, rfl⟩
abbrev main_v21 : Ref sig .tc := ⟨.hbm, 90, rfl⟩
abbrev main_v22 : Ref sig .tc := ⟨.hbm, 91, rfl⟩
abbrev main_c_5 : Ref sig .tc := ⟨.hbm, 92, rfl⟩
abbrev main_call3_v0 : Ref sig .tc := ⟨.hbm, 93, rfl⟩
abbrev main_call3_c : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_c_1 : Ref sig .tc := ⟨.hbm, 100, rfl⟩
abbrev main_call3_v5 : Ref sig .tc := ⟨.hbm, 101, rfl⟩
abbrev main_call3_v6 : Ref sig .tc := ⟨.hbm, 102, rfl⟩
abbrev main_call3_c_2 : Ref sig .tc := ⟨.hbm, 103, rfl⟩
abbrev main_call3_v7 : Ref sig .tc := ⟨.hbm, 104, rfl⟩
abbrev main_call3_v8 : Ref sig .tc := ⟨.hbm, 105, rfl⟩
abbrev main_call3_c_3 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_v23 : Ref sig .tc := ⟨.hbm, 113, rfl⟩
abbrev main_v24 : Ref sig .tc := ⟨.hbm, 114, rfl⟩
abbrev main_v25 : Ref sig .tc := ⟨.hbm, 115, rfl⟩
abbrev main_c_6 : Ref sig .tc := ⟨.hbm, 116, rfl⟩
abbrev main_v26 : Ref sig .tc := ⟨.hbm, 117, rfl⟩
abbrev main_v27 : Ref sig .tc := ⟨.hbm, 118, rfl⟩
abbrev main_c_7 : Ref sig .tc := ⟨.hbm, 119, rfl⟩
abbrev main_v28 : Ref sig .tc := ⟨.hbm, 120, rfl⟩
abbrev main_v29 : Ref sig .tc := ⟨.hbm, 121, rfl⟩
abbrev main_v30 : Ref sig .tc := ⟨.hbm, 122, rfl⟩
abbrev main_c_8 : Ref sig .tc := ⟨.hbm, 123, rfl⟩
abbrev main_v31 : Ref sig .tc := ⟨.hbm, 124, rfl⟩
abbrev main_v32 : Ref sig .tc := ⟨.hbm, 125, rfl⟩
abbrev main_c_9 : Ref sig .tc := ⟨.hbm, 126, rfl⟩
abbrev main_v33 : Ref sig .tc := ⟨.hbm, 127, rfl⟩
abbrev main_v34 : Ref sig .tc := ⟨.hbm, 128, rfl⟩
abbrev main_v35 : Ref sig .tc := ⟨.hbm, 129, rfl⟩
abbrev main_c_10 : Ref sig .tc := ⟨.hbm, 130, rfl⟩
abbrev main_v36 : Ref sig .tc := ⟨.hbm, 131, rfl⟩
abbrev main_v37 : Ref sig .tc := ⟨.hbm, 132, rfl⟩
abbrev main_c_11 : Ref sig .tc := ⟨.hbm, 133, rfl⟩
abbrev main_v38 : Ref sig .tc := ⟨.hbm, 134, rfl⟩
abbrev main_v39 : Ref sig .tc := ⟨.hbm, 135, rfl⟩
abbrev main_v40 : Ref sig .tc := ⟨.hbm, 136, rfl⟩
abbrev main_v41 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_c_12 : Ref sig .tc := ⟨.hbm, 143, rfl⟩
abbrev main_v47 : Ref sig .tc := ⟨.hbm, 144, rfl⟩
abbrev main_v48 : Ref sig .tc := ⟨.hbm, 145, rfl⟩
abbrev main_c_13 : Ref sig .tc := ⟨.hbm, 146, rfl⟩
abbrev main_v49 : Ref sig .tc := ⟨.hbm, 147, rfl⟩
abbrev main_v50 : Ref sig .tc := ⟨.hbm, 148, rfl⟩
abbrev main_v51 : Ref sig .tc := ⟨.hbm, 149, rfl⟩
abbrev main_c_14 : Ref sig .tc := ⟨.hbm, 150, rfl⟩
abbrev main_v52 : Ref sig .tc := ⟨.hbm, 151, rfl⟩
abbrev main_v53 : Ref sig .tc := ⟨.hbm, 152, rfl⟩
abbrev main_c_15 : Ref sig .tc := ⟨.hbm, 153, rfl⟩
abbrev main_v54 : Ref sig .tc := ⟨.hbm, 154, rfl⟩
abbrev main_v55 : Ref sig .tc := ⟨.hbm, 155, rfl⟩
abbrev main_v56 : Ref sig .tc := ⟨.hbm, 156, rfl⟩
abbrev main_c_16 : Ref sig .tc := ⟨.hbm, 157, rfl⟩
abbrev main_v57 : Ref sig .tc := ⟨.hbm, 158, rfl⟩
abbrev main_v58 : Ref sig .tc := ⟨.hbm, 159, rfl⟩
abbrev main_c_17 : Ref sig .tc := ⟨.hbm, 160, rfl⟩
abbrev main_v59 : Ref sig .tc := ⟨.hbm, 161, rfl⟩
abbrev main_v60 : Ref sig .tc := ⟨.hbm, 162, rfl⟩
abbrev main_v61 : Ref sig .tc := ⟨.hbm, 163, rfl⟩
abbrev main_v62 : Ref sig .tc := ⟨.hbm, 164, rfl⟩
abbrev main_v63 : Ref sig .tc := ⟨.hbm, 165, rfl⟩
abbrev main_v64 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_c_18 : Ref sig .tc := ⟨.hbm, 170, rfl⟩
abbrev main_v68 : Ref sig .tc := ⟨.hbm, 171, rfl⟩
abbrev main_v69 : Ref sig .tc := ⟨.hbm, 172, rfl⟩
abbrev main_c_19 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_c_20 : Ref sig .tc := ⟨.hbm, 177, rfl⟩
abbrev main_v73 : Ref sig .tc := ⟨.hbm, 178, rfl⟩
abbrev main_v74 : Ref sig .tc := ⟨.hbm, 179, rfl⟩
abbrev main_c_21 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_c_22 : Ref sig .tc := ⟨.hbm, 184, rfl⟩
abbrev main_v78 : Ref sig .tc := ⟨.hbm, 185, rfl⟩
abbrev main_v79 : Ref sig .tc := ⟨.hbm, 186, rfl⟩
abbrev main_c_23 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_c_24 : Ref sig .tc := ⟨.hbm, 197, rfl⟩
abbrev main_v89 : Ref sig .tc := ⟨.hbm, 198, rfl⟩
abbrev main_v90 : Ref sig .tc := ⟨.hbm, 199, rfl⟩
abbrev main_c_25 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_c_26 : Ref sig .tc := ⟨.hbm, 204, rfl⟩
abbrev main_v94 : Ref sig .tc := ⟨.hbm, 205, rfl⟩
abbrev main_v95 : Ref sig .tc := ⟨.hbm, 206, rfl⟩
abbrev main_c_27 : Ref sig .tc := ⟨.hbm, 207, rfl⟩
abbrev main_v96 : Ref sig .tc := ⟨.hbm, 208, rfl⟩
abbrev main_v97 : Ref sig .tc := ⟨.hbm, 209, rfl⟩
abbrev main_v98 : Ref sig .tc := ⟨.hbm, 210, rfl⟩
abbrev main_c_28 : Ref sig .tc := ⟨.hbm, 211, rfl⟩
abbrev main_v99 : Ref sig .tc := ⟨.hbm, 212, rfl⟩
abbrev main_v100 : Ref sig .tc := ⟨.hbm, 213, rfl⟩
abbrev main_c_29 : Ref sig .tc := ⟨.hbm, 214, rfl⟩
abbrev main_v101 : Ref sig .tc := ⟨.hbm, 215, rfl⟩
abbrev main_v102 : Ref sig .tc := ⟨.hbm, 216, rfl⟩
abbrev main_v103 : Ref sig .tc := ⟨.hbm, 217, rfl⟩
abbrev main_v104 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩

abbrev nD : Nat := 1
abbrev τ : Topo := Topo.v7x

variable {F : FTy → Type} [FloatOps F]

class Facts₀ : Prop where
  slices_S1048576x16x2_S1048576x16x1_0_0_0 : S1048576x16x2.Slices ![0, 0, 0] S1048576x16x1
  shapeCasts_S1048576x16x1_S1048576x16 : S1048576x16x1.ShapeCasts S1048576x16
  bcast_S_S1048576x16 : S_.BroadcastsInDim S1048576x16 (![] : Fin 0 → Fin S1048576x16.rank)
  slices_S1048576x16x2_S1048576x16x1_0_0_1 : S1048576x16x2.Slices ![0, 0, 1] S1048576x16x1
  bcast_S16_S1x16_1 : S16.BroadcastsInDim S1x16 (![1] : Fin 1 → Fin S1x16.rank)
  bcast_S_S1x16 : S_.BroadcastsInDim S1x16 (![] : Fin 0 → Fin S1x16.rank)
  bcast_S1x16_S1048576x16_0_1 : S1x16.BroadcastsInDim S1048576x16 (![0, 1] : Fin 2 → Fin S1048576x16.rank)
  bcast_S1048576x16_S1048576x16x1_0_1 : S1048576x16.BroadcastsInDim S1048576x16x1 (![0, 1] : Fin 2 → Fin S1048576x16x1.rank)
  concatenates_S1048576x16x1_S1048576x16x1_S1048576x16x1_S1048576x16x3_d2 : Shape.Concatenates [S1048576x16x1, S1048576x16x1, S1048576x16x1] S1048576x16x3 2
  gather_S16x1024x1024_S1048576x16x3_S1048576x16_n_012_n_n_012_2_111_wf : GatherDims.WF S16x1024x1024 S1048576x16x3 S1048576x16 [] [0, 1, 2] [] [0, 1, 2] [] 2 ![1, 1, 1]

variable [Facts₀]

def gather_S16x1024x1024_S1048576x16x3_S1048576x16_n_012_n_n_012_2_111 : GatherDims S16x1024x1024 S1048576x16x3 S1048576x16 where
  offsetDims := []
  collapsedSliceDims := [0, 1, 2]
  operandBatchingDims := []
  startIndicesBatchingDims := []
  startIndexMap := [0, 1, 2]
  indexVectorDim := 2
  sliceSizes := ![1, 1, 1]
  wf := gather_S16x1024x1024_S1048576x16x3_S1048576x16_n_012_n_n_012_2_111_wf

class Facts : Prop extends Facts₀ where

variable [Facts]
-- ==== Proof.Spec.lean ====
/-
  Bilinear sampling of a periodic 1024 × 1024 image, as one function of a pixel plane and a coordinate pair, in the two
  arrangements the certificate compares.

  A coordinate `c` is shifted by one half, `v = c - 1/2`; its cell is the integer `⌊v⌋` (converted to a 32-bit word,
  saturating) and its weight the fractional part `v - ⌊v⌋`. The two pixels met along an axis are the cell and its
  successor, both wrapped into `[0, 1024)` by keeping the low ten bits of the word.

  * `kval`: the one-hot arrangement. Along each axis the two weights `1 - t` and `t` are laid out as a vector over
    all 1024 positions (zero away from the two pixels); the row vector is contracted against the plane, the result
    multiplied by the column vector and summed.
  * `rval`: the four-corner arrangement, `i0 + ty·(i1 - i0)` with `i0 = i00 + tx·(i01 - i00)` and
    `i1 = i10 + tx·(i11 - i10)`.

  `Kout` and `Rout` apply them at every (point, feature) of the arrays: feature `f` of point `p` reads the plane
  `img[f, ·, ·]` at the coordinates `(coords[p, f, 0], coords[p, f, 1])` (x first, then y).
-/
import Idealize.ShloMosaic.PureOps.Ideal
import Idealize.ShloMosaic.Lib.ValueIdx

noncomputable section

open scoped BigOperators

namespace Cert.Bilerp

open Idealize.ShloMosaic Idealize.ShloMosaic.ValueIdx

/-- The f32 words of one half, one and zero, read as extended reals. -/
abbrev half : EReal := Ideal.ofBits .f32 0x3F000000#32
abbrev one : EReal := Ideal.ofBits .f32 0x3F800000#32
abbrev zero : EReal := Ideal.ofBits .f32 0x00000000#32

/-- The floor of an extended real (an infinity is its own floor). -/
def fl (v : EReal) : EReal := Ideal.liftRound Int.floor v
/-- The cell of `v`: its floor as a 32-bit word (saturating conversion). -/
def cell (v : EReal) : BitVec 32 := Ideal.fptosi 32 (fl v)
/-- The weight of `v`: its fractional part. -/
def frac (v : EReal) : EReal := v - fl v

/-- A cell word wrapped into `[0, 1024)`: its low ten bits. -/
def lo (a : BitVec 32) : BitVec 32 := a &&& 1023#32
/-- The successor cell wrapped into `[0, 1024)`. -/
def hi (a : BitVec 32) : BitVec 32 := (a + 1#32) &&& 1023#32

/-- A word with only low ten bits set is below 1024. -/
theorem and_1023_lt (a : BitVec 32) : (a &&& 1023#32).toNat < 1024 := by
  rw [BitVec.toNat_and]
  exact lt_of_le_of_lt Nat.and_le_right (by decide)

/-- The pixel position a wrapped word names. -/
def pix (a : BitVec 32) : Fin 1024 := ⟨(a &&& 1023#32).toNat, and_1023_lt a⟩

/-- The one-hot blend vector of cell `a` and weight `t`, at the position whose word is `k`:
    `1 - t` on the cell's pixel, `t` on the successor's, zero elsewhere. -/
def hot (a : BitVec 32) (t : EReal) (k : BitVec 32) : EReal :=
  if k = lo a then one - t else if k = hi a then t else zero

/-- ONE-HOT ARRANGEMENT: rows blended by a contraction over all 1024 row positions, then columns by a weighted sum. -/
def kval (g : Fin 1024 → Fin 1024 → EReal) (cx cy : EReal) : EReal :=
  ∑ w : Fin 1024, (∑ h : Fin 1024, hot (cell (cy - half)) (frac (cy - half)) (BitVec.ofNat 32 h.val) * g h w)
    * hot (cell (cx - half)) (frac (cx - half)) (BitVec.ofNat 32 w.val)

/-- FOUR-CORNER ARRANGEMENT: the two lerps along x, then the lerp along y. -/
def rval (g : Fin 1024 → Fin 1024 → EReal) (cx cy : EReal) : EReal :=
  let x := cx - half
  let y := cy - half
  let x0 := pix (cell x)
  let x1 := pix (cell x + 1#32)
  let y0 := pix (cell y)
  let y1 := pix (cell y + 1#32)
  let i0 := g y0 x0 + frac x * (g y0 x1 - g y0 x0)
  let i1 := g y1 x0 + frac x * (g y1 x1 - g y1 x0)
  i0 + frac y * (i1 - i0)

/-- The one-hot arrangement at every (point, feature). -/
def Kout (img : (⟨3, ![16, 1024, 1024]⟩ : Shape).Idx → EReal) (co : (⟨3, ![1048576, 16, 2]⟩ : Shape).Idx → EReal) :
    (⟨2, ![1048576, 16]⟩ : Shape).Idx → EReal :=
  fun i => kval (fun h w => img (ix3 (i 1) h w)) (co (ix3 (i 0) (i 1) (0 : Fin 2))) (co (ix3 (i 0) (i 1) (1 : Fin 2)))

/-- The four-corner arrangement at every (point, feature). -/
def Rout (img : (⟨3, ![16, 1024, 1024]⟩ : Shape).Idx → EReal) (co : (⟨3, ![1048576, 16, 2]⟩ : Shape).Idx → EReal) :
    (⟨2, ![1048576, 16]⟩ : Shape).Idx → EReal :=
  fun i => rval (fun h w => img (ix3 (i 1) h w)) (co (ix3 (i 0) (i 1) (0 : Fin 2))) (co (ix3 (i 0) (i 1) (1 : Fin 2)))

end Cert.Bilerp

end
-- ==== Proof.Bridge.lean ====
/-
  The one-hot arrangement and the four-corner arrangement of bilinear sampling agree on finite data.

  Along an axis the blend vector `hot a t` is `1 - t` at the cell's pixel, `t` at the successor's pixel and zero at the
  other 1022 positions, and the two pixels are distinct (a cell and its successor differ modulo 1024). A sum of the
  blend vector against any function therefore has just two terms, with no assumption on the function's values, because
  zero times anything — an infinity included — is zero on the extended reals. What is left,
  `((1-ty)·a + ty·c)·(1-tx) + ((1-ty)·b + ty·d)·tx = i0 + ty·(i1 - i0)` with `i0 = a + tx·(b - a)`, `i1 = c + tx·(d - c)`,
  is an identity of real numbers; it needs the four corners and the weights to be finite (it cancels `a - a`), which is
  where the finiteness of the inputs is used.
-/
import proofs.«130787_j27539330302294_2_alg».proof.Proof.Spec
import Mathlib.Data.EReal.Basic
import Mathlib.Algebra.BigOperators.Fin

noncomputable section

open scoped BigOperators

namespace Cert.Bilerp

open Idealize.ShloMosaic

/-- The word of one is the real number one. -/
theorem one_eq : one = ((1 : ℝ) : EReal) := by
  simp [one, Ideal.ofBits, Ideal.ieee]
  rw [← EReal.coe_mul, ← EReal.coe_one]; congr 1; norm_num

/-- The word of zero is zero. -/
theorem zero_eq : zero = 0 := by
  simp [zero, Ideal.ofBits, Ideal.ieee]

/-- The word of one half is a real number (which one is immaterial here). -/
theorem half_real : ∃ r : ℝ, half = (r : EReal) := by
  simp [half, Ideal.ofBits, Ideal.ieee]
  exact ⟨_, (EReal.coe_mul _ _).symm⟩

/-- A sum against a vector supported on two distinct positions has two terms. -/
theorem sum_two_hot {n : ℕ} (p0 p1 : Fin n) (hne : p0 ≠ p1) (u v : EReal) (G : Fin n → EReal) :
    ∑ h : Fin n, (if h = p0 then u else if h = p1 then v else 0) * G h = u * G p0 + v * G p1 := by
  have hterm : ∀ h : Fin n, (if h = p0 then u else if h = p1 then v else 0) * G h
      = (if h = p0 then u * G h else 0) + (if h = p1 then v * G h else 0) := by
    intro h
    by_cases h0 : h = p0
    · have h1 : h ≠ p1 := fun e => hne (h0.symm.trans e)
      simp [h0, h1, hne]
    · by_cases h1 : h = p1
      · simp [h1, hne.symm]
      · simp [h0, h1]
  simp only [hterm, Finset.sum_add_distrib, Finset.sum_ite_eq', Finset.mem_univ, if_true]

/-- The floor of a real is a real. -/
theorem fl_coe (r : ℝ) : fl (r : EReal) = ((⌊r⌋ : ℝ) : EReal) := rfl

/-- The weight of a real is a real. -/
theorem frac_coe (r : ℝ) : frac (r : EReal) = ((r - ⌊r⌋ : ℝ) : EReal) := by
  rw [frac, fl_coe, ← EReal.coe_sub]

section Positions

/- The two facts about words the collapse rests on: the position whose word is the wrapped cell is the cell's pixel, and
   a cell's pixel differs from its successor's. -/
variable (hiff : ∀ (a : BitVec 32) (h : Fin 1024), BitVec.ofNat 32 h.val = a &&& 1023#32 ↔ h = pix a)
variable (hsucc : ∀ a : BitVec 32, pix a ≠ pix (a + 1#32))

include hiff in
/-- The blend vector by pixel positions. -/
theorem hot_at (a : BitVec 32) (t : EReal) (h : Fin 1024) :
    hot a t (BitVec.ofNat 32 h.val) = if h = pix a then one - t else if h = pix (a + 1#32) then t else 0 := by
  unfold hot lo hi
  simp only [hiff, zero_eq]

include hiff hsucc in
/-- The one-hot arrangement has four terms: two rows blended at each of two columns. -/
theorem kval_four (g : Fin 1024 → Fin 1024 → EReal) (cx cy : EReal) :
    kval g cx cy
      = (one - frac (cx - half)) * ((one - frac (cy - half)) * g (pix (cell (cy - half))) (pix (cell (cx - half)))
            + frac (cy - half) * g (pix (cell (cy - half) + 1#32)) (pix (cell (cx - half))))
        + frac (cx - half) * ((one - frac (cy - half)) * g (pix (cell (cy - half))) (pix (cell (cx - half) + 1#32))
            + frac (cy - half) * g (pix (cell (cy - half) + 1#32)) (pix (cell (cx - half) + 1#32))) := by
  unfold kval
  simp only [hot_at hiff]
  have hrow : ∀ w : Fin 1024, (∑ h : Fin 1024, (if h = pix (cell (cy - half)) then one - frac (cy - half)
        else if h = pix (cell (cy - half) + 1#32) then frac (cy - half) else 0) * g h w)
      = (one - frac (cy - half)) * g (pix (cell (cy - half))) w + frac (cy - half) * g (pix (cell (cy - half) + 1#32)) w :=
    fun w => sum_two_hot _ _ (hsucc _) _ _ (fun h => g h w)
  simp only [hrow]
  rw [Finset.sum_congr rfl (fun w _ => mul_comm _ _)]
  exact sum_two_hot _ _ (hsucc _) _ _ _

include hiff hsucc in
/-- ON FINITE DATA THE TWO ARRANGEMENTS AGREE. -/
theorem kval_eq_rval (g : Fin 1024 → Fin 1024 → EReal) (cx cy : EReal)
    (hg : ∀ h w, ∃ r : ℝ, g h w = (r : EReal)) (hx : ∃ r : ℝ, cx = (r : EReal)) (hy : ∃ r : ℝ, cy = (r : EReal)) :
    kval g cx cy = rval g cx cy := by
  rw [kval_four hiff hsucc]
  unfold rval
  obtain ⟨rh, hrh⟩ := half_real
  obtain ⟨rx, rfl⟩ := hx
  obtain ⟨ry, rfl⟩ := hy
  rw [hrh, ← EReal.coe_sub, ← EReal.coe_sub]
  obtain ⟨a, ha⟩ := hg (pix (cell ((ry - rh : ℝ) : EReal))) (pix (cell ((rx - rh : ℝ) : EReal)))
  obtain ⟨b, hb⟩ := hg (pix (cell ((ry - rh : ℝ) : EReal))) (pix (cell ((rx - rh : ℝ) : EReal) + 1#32))
  obtain ⟨c, hc⟩ := hg (pix (cell ((ry - rh : ℝ) : EReal) + 1#32)) (pix (cell ((rx - rh : ℝ) : EReal)))
  obtain ⟨d, hd⟩ := hg (pix (cell ((ry - rh : ℝ) : EReal) + 1#32)) (pix (cell ((rx - rh : ℝ) : EReal) + 1#32))
  simp only [ha, hb, hc, hd, frac_coe, one_eq, ← EReal.coe_sub, ← EReal.coe_mul, ← EReal.coe_add]
  congr 1
  ring

end Positions

end Cert.Bilerp

end
-- ==== Proof.Words.lean ====
/-
  The 32-bit word facts of the wrap into [0, 1024), each at one element.

  A cell word is wrapped either by keeping its low ten bits, or by a truncated remainder by 1024 that is corrected by
  adding 1024 when it is negative. The truncated remainder of a word by 1024 has the sign of the word and the magnitude
  |a| mod 1024; since 1024 divides 2^32, the corrected remainder and the low ten bits name the same residue of the
  unsigned value modulo 1024, and both lie in [0, 1024), so they are the same word.

  A word below 2^31 is nonnegative when read signed: the negative-index correction leaves it alone, and a clamp into
  [0, n - 1] of a word already at most n - 1 is its unsigned value.
-/
import proofs.«130787_j27539330302294_2_alg».proof.Proof.Spec
import proofs.«130787_j27539330302294_2_alg».proof.Proof.Gen.ReferenceIdeal

namespace Cert.Bilerp.Words

open Idealize.ShloMosaic

/-! ## Integers and naturals -/

/-- The truncated remainder by 1024 is the floored one, less 1024 when the dividend is negative and not a multiple. -/
theorem tmod_1024 (x : Int) : x.tmod 1024 = x % 1024 - (if 0 ≤ x ∨ (1024 : Int) ∣ x then 0 else 1024) := by
  rw [Int.tmod_eq_emod]; split <;> rfl

/-- The signed remainder of a word by 1024, read signed, is the truncated remainder of its signed value. -/
theorem toInt_srem_1024 (a : BitVec 32) : (a.srem 1024#32).toInt = a.toInt.tmod 1024 := by
  rw [BitVec.toInt_srem]; rfl

/-- The low ten bits of a word are its unsigned value modulo 1024. -/
theorem toNat_and_1023 (a : BitVec 32) : (a &&& 1023#32).toNat = a.toNat % 1024 := by
  rw [BitVec.toNat_and]
  exact Nat.and_two_pow_sub_one_eq_mod a.toNat 10

/-! ## The corrected remainder is the low ten bits -/

/-- The remainder by 1024 with the sign of the divisor: the truncated remainder, plus 1024 when its sign differs from
    the divisor's and it is not zero. The divisor is guarded against zero as the lowering does. -/
def remFix (a : BitVec 32) : BitVec 32 :=
  let d : BitVec 32 := Scalar.select (IntOp.cmpi .eq 1024#32 0#32) 1#32 1024#32
  let r := IntOp.remsi .host a d
  Scalar.select (IntOp.andi (IntOp.cmpi .ne (IntOp.cmpi .slt r 0#32) (IntOp.cmpi .slt d 0#32)) (IntOp.cmpi .ne r 0#32)) (IntOp.addi r d) r

/-- 1024 is neither zero nor minus one: dividing by it is no corner of signed division. -/
theorem remsi_1024 (u : ArithUnit) (a : BitVec 32) : IntOp.remsi u a 1024#32 = a.srem 1024#32 := by
  unfold IntOp.remsi
  rw [if_neg]
  rintro (h | ⟨-, h⟩) <;> exact absurd h (by decide)

/-- The guard of the divisor is not taken. -/
theorem guard_1024 : Scalar.select (IntOp.cmpi .eq 1024#32 0#32) 1#32 1024#32 = 1024#32 := by decide

/-- The correction of a remainder `r` by 1024: `r + 1024` when `r` is negative, else `r`. -/
theorem fix_select (r : BitVec 32) :
    Scalar.select (IntOp.andi (IntOp.cmpi .ne (IntOp.cmpi .slt r 0#32) (IntOp.cmpi .slt 1024#32 0#32)) (IntOp.cmpi .ne r 0#32))
      (IntOp.addi r 1024#32) r = if r.toInt < 0 then r + 1024#32 else r := by
  have h0 : IntOp.cmpi .slt 1024#32 0#32 = 0#1 := by decide
  have hz : (0#32 : BitVec 32).toInt = 0 := rfl
  rw [h0]
  by_cases hs : r.slt 0#32 = true
  · have hne : r ≠ 0#32 := by
      rintro rfl; revert hs; decide
    have hb : (r != 0#32) = true := bne_iff_ne.mpr hne
    have hlt : r.toInt < 0 := by rw [BitVec.slt_iff_toInt_lt, hz] at hs; exact hs
    rw [if_pos hlt]
    simp [Scalar.select, IntOp.andi, IntOp.cmpi, IntOp.addi, hs, hb]
  · have hlt : ¬ r.toInt < 0 := by rw [BitVec.slt_iff_toInt_lt, hz] at hs; exact hs
    rw [if_neg hlt]
    simp [Scalar.select, IntOp.andi, IntOp.cmpi, IntOp.addi, hs]

/-- THE CORRECTED REMAINDER BY 1024 IS THE LOW TEN BITS. With `n` the unsigned value of `a`: if `a` is nonnegative the
    remainder is `n % 1024`; if `a` is negative its signed value is `n - 2^32`, congruent to `n` modulo 1024, so the
    truncated remainder is `n % 1024 - 1024` (or zero), and adding 1024 modulo 2^32 gives `n % 1024`. -/
theorem remFix_eq (a : BitVec 32) : remFix a = a &&& 1023#32 := by
  unfold remFix
  simp only [guard_1024, remsi_1024, fix_select]
  have hr := toInt_srem_1024 a
  rw [tmod_1024] at hr
  have ha := BitVec.toInt_eq_toNat_cond a
  have hrr := BitVec.toInt_eq_toNat_cond (a.srem 1024#32)
  have hlt := a.isLt
  have hrlt := (a.srem 1024#32).isLt
  generalize a.srem 1024#32 = r at *
  apply BitVec.eq_of_toNat_eq
  rw [toNat_and_1023]
  have h1024 : (1024#32 : BitVec 32).toNat = 1024 := rfl
  by_cases hs : r.toInt < 0
  · rw [if_pos hs, BitVec.toNat_add, h1024]
    split at hr <;> split at ha <;> split at hrr <;> omega
  · rw [if_neg hs]
    split at hr <;> split at ha <;> split at hrr <;> omega

/-! ## The one-hot positions -/

/-- A position below 1024, as a word, is the wrapped word exactly when it is the pixel the wrapped word names. -/
theorem ofNat_eq_and_iff (a : BitVec 32) (h : Fin 1024) : BitVec.ofNat 32 h.val = a &&& 1023#32 ↔ h = Cert.Bilerp.pix a := by
  have hh : (BitVec.ofNat 32 h.val).toNat = h.val := by
    rw [BitVec.toNat_ofNat]; have := h.isLt; omega
  constructor
  · intro e
    apply Fin.ext
    show h.val = (a &&& 1023#32).toNat
    rw [← e, hh]
  · intro e
    apply BitVec.eq_of_toNat_eq
    rw [hh, e]
    rfl

/-- A cell and its successor wrap to different words: their unsigned values differ by one modulo 2^32, hence by one
    modulo 1024. -/
theorem lo_ne_hi (a : BitVec 32) : a &&& 1023#32 ≠ (a + 1#32) &&& 1023#32 := by
  intro e
  have h := congrArg BitVec.toNat e
  rw [toNat_and_1023, toNat_and_1023, BitVec.toNat_add] at h
  have h1 : (1#32 : BitVec 32).toNat = 1 := rfl
  have := a.isLt
  omega

/-- … and so name different pixels. -/
theorem pix_succ_ne (a : BitVec 32) : Cert.Bilerp.pix a ≠ Cert.Bilerp.pix (a + 1#32) := by
  intro e
  have h : (Cert.Bilerp.pix a).val = (Cert.Bilerp.pix (a + 1#32)).val := congrArg Fin.val e
  exact lo_ne_hi a (BitVec.eq_of_toNat_eq h)

/-! ## The negative-index correction and the clamp -/

/-- The negative-index correction: add the axis length `n` to a negative index. -/
def negFix (n a : BitVec 32) : BitVec 32 := Scalar.select (IntOp.cmpi .slt a 0#32) (IntOp.addi a n) a

/-- A word below 2^31 is not negative, so the correction leaves it alone. -/
theorem negFix_of_lt (n x : BitVec 32) (h : 2 * x.toNat < 2 ^ 32) : negFix n x = x := by
  unfold negFix
  have hx : ¬ (x.slt 0#32 = true) := by
    rw [BitVec.slt_iff_toInt_lt, BitVec.toInt_eq_toNat_of_lt h]
    show ¬ ((x.toNat : Int) < 0)
    omega
  have hc : IntOp.cmpi .slt x 0#32 = 0#1 := by simp [IntOp.cmpi, hx]
  rw [hc]
  exact if_neg (by decide)

theorem negFix_and (a : BitVec 32) : negFix 1024#32 (a &&& 1023#32) = a &&& 1023#32 :=
  negFix_of_lt _ _ (by have := and_1023_lt a; omega)

/-- A feature number below 16, as a word, has that unsigned value. -/
theorem toNat_feat (f : Fin 16) : (BitVec.ofNat 32 f.val).toNat = f.val := by
  rw [BitVec.toNat_ofNat]; have := f.isLt; omega

theorem negFix_feat (f : Fin 16) : negFix 16#32 (BitVec.ofNat 32 f.val) = BitVec.ofNat 32 f.val :=
  negFix_of_lt _ _ (by rw [toNat_feat]; have := f.isLt; omega)

/-- A word at most `k < 2^31`, read signed and clamped into `[0, k]`, is its unsigned value. -/
theorem clamp_of_le (x : BitVec 32) (k : Nat) (hk : 2 * k < 2 ^ 32) (h : x.toNat ≤ k) : min x.toInt.toNat k = x.toNat := by
  rw [BitVec.toInt_eq_toNat_of_lt (by omega)]
  omega

theorem clamp_and (a : BitVec 32) : min (a &&& 1023#32).toInt.toNat 1023 = (a &&& 1023#32).toNat :=
  clamp_of_le _ 1023 (by decide) (by have := and_1023_lt a; omega)

theorem clamp_feat (f : Fin 16) : min (BitVec.ofNat 32 f.val).toInt.toNat 15 = f.val := by
  rw [clamp_of_le _ 15 (by decide) (by rw [toNat_feat]; have := f.isLt; omega), toNat_feat]

/-! ## The point gather read at one (point, feature)

The gather collapses all three axes of the image with slices of size one: result element `(P, f)` is the image at the
three components of the start index `idx[P, f, ·]`, each read signed and clamped into its axis (`[0, 15]` for the
feature axis, `[0, 1023]` for the two pixel axes). No axis is a batching axis and none is kept as an offset, so both of
those coordinates vanish and only the clamped start remains. -/

section Gather

open Idealize.ShloMosaic.ValueIdx Cert.ReferenceIdeal Cert.ReferenceIdeal.Gen

/-- The gather's dimension numbers, under a short name. -/
abbrev gd3 := gather_S16x1024x1024_S1048576x16x3_S1048576x16_n_012_n_n_012_2_111

/-- Component `c` of the start index of result element `(P, f)` is read at `idx[P, f, c]`. -/
theorem siIdx3 (P : Fin 1048576) (f : Fin 16) (c : Fin 3) (h : c.val < gd3.startIndexMap.length) :
    gd3.siIdx (ix2 P f) ⟨c.val, h⟩ = ix3 P f c := by
  funext b; refine Fin.ext ?_
  match b with
  | ⟨0, _⟩ => rfl
  | ⟨1, _⟩ => rfl
  | ⟨2, _⟩ => rfl

theorem gather3_apply {α : Type} (x : Cert.ReferenceIdeal.S16x1024x1024.Idx → α) (idx : IVec Cert.ReferenceIdeal.S1048576x16x3 32)
    (P : Fin 1048576) (f : Fin 16) :
    Host.gather Cert.ReferenceIdeal.gather_S16x1024x1024_S1048576x16x3_S1048576x16_n_012_n_n_012_2_111 x idx (ix2 P f)
      = x (ix3 ⟨min (idx (ix3 P f (0 : Fin 3))).toInt.toNat 15, by omega⟩
            ⟨min (idx (ix3 P f (1 : Fin 3))).toInt.toNat 1023, by omega⟩
            ⟨min (idx (ix3 P f (2 : Fin 3))).toInt.toNat 1023, by omega⟩) := by
  unfold Host.gather
  refine congrArg x ?_
  funext a
  refine Fin.ext ?_
  show gd3.start (ix2 P f) idx a + gd3.batchCoord (ix2 P f) a + gd3.offCoord (ix2 P f) a = _
  have hmem : a ∈ gd3.startIndexMap := by
    show a ∈ [(0 : Fin 3), 1, 2]
    revert a; decide
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos hmem]
  match a with
  | ⟨0, _⟩ => exact congrArg (fun i => min (idx i).toInt.toNat 15) (siIdx3 P f 0 _)
  | ⟨1, _⟩ => exact congrArg (fun i => min (idx i).toInt.toNat 1023) (siIdx3 P f 1 _)
  | ⟨2, _⟩ => exact congrArg (fun i => min (idx i).toInt.toNat 1023) (siIdx3 P f 2 _)

end Gather

end Cert.Bilerp.Words
-- ==== Proof.Finite.lean ====
/-
  Finiteness from the precondition: the precondition compares each argument's absolute value with plus infinity and
  takes the conjunction over all entries; when it holds, every entry of both arguments is a real number.
-/
import proofs.«130787_j27539330302294_2_alg».proof.Proof.Gen.Pre_finite_inputs
import Idealize.ShloMosaic.Lib.ReduceAll
import Idealize.ShloMosaic.Lib.ValueIdx
import Idealize.ShloMosaic.PureOps.Ideal

namespace Cert.Bilerp.Finite

open Idealize.ShloMosaic

/-- The rank-0 shape has one index. -/
instance : Subsingleton Cert.Pre_finite_inputs.S_.Idx := ⟨fun a b => funext fun d => d.elim0⟩

/-- The f32 pattern 0x7F800000 denotes plus infinity. -/
theorem ofBits_inf : Ideal.ofBits .f32 0x7F800000#32 = (⊤ : EReal) := by simp [Ideal.ofBits, Ideal.ieee]

/-- One entry: an extended real whose absolute value is below plus infinity is a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

theorem of_pre (a0 : FVec Ideal Cert.Pre_finite_inputs.S16x1024x1024 .f32) (a1 : FVec Ideal Cert.Pre_finite_inputs.S1048576x16x2 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨h1, h2⟩ := IntOp.andi_eq_one.1 h0
  refine ⟨fun i => ?_, fun i => ?_⟩
  · exact real_of_abs_lt _ (Host.reduce_andi_all _ _ _ _ _ h1 i)
  · exact real_of_abs_lt _ (Host.reduce_andi_all _ _ _ _ _ h2 i)

end Cert.Bilerp.Finite
-- ==== Proof.KBodyChain.lean ====
/-
  The arithmetic applied to one feature of a block of 256 points, as one vector function.

  For feature `f` the coordinate pairs `coords[:, f, :]` form a [256, 2] matrix; its two columns, each shifted by one
  half, give for every point a cell (the floor, as a 32-bit word) and a weight (the fractional part). Along each axis
  the two weights `1 - t` and `t` are spread over the 1024 lane positions: `1 - t` where the position's word equals the
  wrapped cell, `t` where it equals the wrapped successor, zero elsewhere. The y-vector is contracted against the
  [1024, 1024] plane of the feature, the result multiplied entry by entry with the x-vector, and each row summed.
-/
import proofs.«130787_j27539330302294_2_alg».proof.Proof.Gen.KernelIdeal.Skeleton

noncomputable section

namespace Cert.KernelIdeal.KBody

open Cert.KernelIdeal Cert.KernelIdeal.Gen Idealize.ShloMosaic Idealize.SL.Sem

variable {F : FTy → Type} [FloatOps F]

/-- The lane positions 0 … 1023 along every row, as words. -/
def lanes : IVec S256x1024 32 := iota .tc S256x1024 32 [1] iota_S256x1024_d1_w32

/-- The coordinate pairs of feature `f`: column `f` of the coordinate block as a [256, 2] matrix. -/
def pair (f : ℕ) (hs : S256x16x2.Slices ![0, f, 0] S256x1x2) (c : Vec F S256x16x2 .f32) : FVec F S256x2 .f32 :=
  shapeCast S256x2 (extractStridedSlice S256x1x2 ![0, f, 0] c hs) shapeCasts_S256x1x2_S256x2

/-- Component `k` of the pairs (0: x, 1: y), shifted by one half. -/
def shifted (k : ℕ) (hk : S256x2.Slices ![0, k] S256x1) (xy : FVec F S256x2 .f32) : FVec F S256x1 .f32 :=
  subf (extractStridedSlice S256x1 ![0, k] xy hk) (broadcast S256x1 (Scalar.ofBits .f32 0x3F000000#32))

/-- The cell of each shifted coordinate: its floor as a word. -/
def cellv (v : FVec F S256x1 .f32) : IVec S256x1 32 := fptosi 32 (floor v)

/-- The weight of each shifted coordinate: its fractional part. -/
def fracv (v : FVec F S256x1 .f32) : FVec F S256x1 .f32 := subf v (floor v)

/-- The cell wrapped into [0, 1024). -/
def lov (a : IVec S256x1 32) : IVec S256x1 32 := andi a (broadcast S256x1 1023#32)

/-- The successor cell wrapped into [0, 1024). -/
def hiv (a : IVec S256x1 32) : IVec S256x1 32 :=
  andi (addi a (broadcast S256x1 1#32)) (broadcast S256x1 1023#32)

/-- The two weights spread over the lane positions: `1 - w` at the position `a0`, `w` at `a1`, zero elsewhere. -/
def blend (io : IVec S256x1024 32) (a0 a1 : IVec S256x1 32) (w : FVec F S256x1 .f32) : FVec F S256x1024 .f32 :=
  select (cmpi .eq io (broadcastTo S256x1024 a0 broadcasts_S256x1_S256x1024))
    (broadcastTo S256x1024
      (shapeCast S256x1 (subf (broadcast S256x1 (Scalar.ofBits .f32 0x3F800000#32)) w) shapeCasts_S256x1_S256x1)
      broadcasts_S256x1_S256x1024)
    (select (cmpi .eq io (broadcastTo S256x1024 a1 broadcasts_S256x1_S256x1024))
      (broadcastTo S256x1024 (shapeCast S256x1 w shapeCasts_S256x1_S256x1) broadcasts_S256x1_S256x1024)
      (broadcast S256x1024 (Scalar.ofBits .f32 0x00000000#32)))

/-- The whole chain for feature `f`: the y-blend contracted against the plane, times the x-blend, summed along rows. -/
def featVec (f : ℕ) (hs : S256x16x2.Slices ![0, f, 0] S256x1x2) (c : Vec F S256x16x2 .f32)
    (slab : Vec F S1x1024x1024 .bf16) : FVec F S256x1 .f32 :=
  shapeCast S256x1
    (multiReduction .add [1] S256
      (mulf
        (matmul dot_S256x1024_S1024x1024_S256x1024_1_0_0_1_n_n none
          (truncf .bf16
            (blend lanes (lov (cellv (shifted 1 slices_S256x2_o0_1_S256x1 (pair f hs c))))
              (hiv (cellv (shifted 1 slices_S256x2_o0_1_S256x1 (pair f hs c))))
              (fracv (shifted 1 slices_S256x2_o0_1_S256x1 (pair f hs c))))
            bitsLt_bf16_f32)
          (shapeCast S1024x1024 slab shapeCasts_S1x1024x1024_S1024x1024)
          (constant S256x1024 .f32 0x00000000#32))
        (blend lanes (lov (cellv (shifted 0 slices_S256x2_o0_0_S256x1 (pair f hs c))))
          (hiv (cellv (shifted 0 slices_S256x2_o0_0_S256x1 (pair f hs c))))
          (fracv (shifted 0 slices_S256x2_o0_0_S256x1 (pair f hs c)))))
      0x00000000#32 reduces_S256x1024_S256 (.inl rfl) rfl)
    shapeCasts_S256_S256x1

/-- Feature 0's store is the chain at offset 0 (the payload terms unfold to it). -/
example (c : Vec F S256x16x2 .f32) (slab : Vec F S1x1024x1024 .bf16) :
    k0_pay10 (iota .tc S256x1024 32 [1] iota_S256x1024_d1_w32) (k0_pay5 c) (k0_pay7 c) (k0_pay8 c) (k0_pay9 c) slab
      = featVec 0 slices_S256x16x2_o0_0_0_S256x1x2 c slab := rfl

end Cert.KernelIdeal.KBody

end
-- ==== Proof.LibColumnBroadcast.lean ====
/-
  A column spread over many columns, read at an entry.

  A `vector.broadcast` of an `[a, 1]` array to `[a, b]` repeats the one column `b` times: the entry at row `p` and column
  `c` is the column's entry at row `p`, whatever `c`. (The companion of the row form `[1, b] → [a, b]`; it is what a
  reduction that keeps its axis, or a bias turned into a column, is spread back with.)
-/
import Idealize.ShloMosaic.Lib.Pipeline.Value
import Idealize.ShloMosaic.Lib.ValueIdx

namespace Cert.LibColumnBroadcast

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.LibUnitAxisCasts.lean ====
/-
  Reshapes that only add or drop a unit axis, read at an entry.

  Dropping the leading unit axis of a `[1, a, b]` array gives the `[a, b]` array whose entry `(p, c)` is the
  operand's entry `(0, p, c)`; turning an `[a]` vector into an `[a, 1]` column gives the column whose entry `(p, 0)` is
  the vector's entry `p`. Both hold because a reshape keeps every entry's row-major position.
-/
import Idealize.ShloMosaic.Lib.Pipeline.Value
import Idealize.ShloMosaic.Lib.ValueIdx

namespace Cert.LibUnitAxisCasts

open Idealize.ShloMosaic Idealize.ShloMosaic.ValueIdx

/-- `[1, a, b] → [a, b]`: entry `(p, c)` is the operand's `(0, p, c)`. -/
theorem shapeCast_1ab_ab_apply {α : Type} {a b : ℕ} (v : (⟨3, ![1, a, b]⟩ : Shape).Idx → α)
    (h : (⟨3, ![1, a, b]⟩ : Shape).ShapeCasts ⟨2, ![a, b]⟩) (p : Fin a) (c : Fin b) :
    shapeCast ⟨2, ![a, b]⟩ v h (ix2 p c) = v (ix3 (0 : Fin 1) p c) :=
  shapeCast_apply v h (ix2 p c) (ix3 (0 : Fin 1) p c) (by
    rw [Shape.rowMajor_val_three, Shape.rowMajor_val_two]
    show ((0 : ℕ) * a + p.val) * b + c.val = p.val * b + c.val
    rw [Nat.zero_mul, Nat.zero_add])

/-- `[a] → [a, 1]`: entry `(p, 0)` is the operand's `p`. -/
theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.LibUnitAxisCasts
-- ==== Proof.KBodyValue.lean ====
/-
  The per-feature chain read at one point.

  Row `p` of the chain for feature `f` depends only on the pair `(cx, cy) = coords[p, f, :]` and on the plane: every
  column vector involved ([256, 1]) is read at `(p, 0)`, its spread over the lanes at `(p, k)` reads the same entry,
  the lane position at `(p, k)` is the word of `k`, a select on an equality test of words is an `if` on the equality,
  the matrix product into a zero array at `(p, w)` is the sum over the contracted position, and the row sum at `p` is
  the sum over the lanes. The result is the one-hot arrangement `Bilerp.kval` of the plane at `(cx, cy)`, factor for
  factor, so no law of the extended reals is used.
-/
import proofs.«130787_j27539330302294_2_alg».proof.Proof.KBodyChain
import proofs.«130787_j27539330302294_2_alg».proof.Proof.Spec
import proofs.«130787_j27539330302294_2_alg».proof.Proof.LibColumnBroadcast
import proofs.«130787_j27539330302294_2_alg».proof.Proof.LibPlainMatmul
import proofs.«130787_j27539330302294_2_alg».proof.Proof.LibUnitAxisCasts
import Idealize.ShloMosaic.Lib.Pipeline.Value
import Idealize.ShloMosaic.PureOps.Ideal.Laws

noncomputable section

namespace Cert.KernelIdeal.KBody

open Cert.KernelIdeal Cert.KernelIdeal.Gen Idealize.ShloMosaic Idealize.ShloMosaic.ValueIdx Idealize.SL.Sem
open scoped BigOperators

/-- A select on an equality test of two words is an `if` on their equality. -/
theorem select_cmpi_eq {α : Type} (x y : BitVec 32) (a b : α) :
    Scalar.select (IntOp.cmpi .eq x y) a b = if x = y then a else b := by
  unfold Scalar.select IntOp.cmpi
  by_cases h : x = y
  · subst h; simp
  · have hb : (x == y) = false := beq_eq_false_iff_ne.mpr h
    rw [if_neg h]
    show (if BitVec.ofBool (x == y) = 1#1 then a else b) = b
    rw [hb]
    exact if_neg (by decide)

/-- The lane position at `(p, k)` is the word of `k`. -/
theorem lanes_apply (p : Fin 256) (k : Fin 1024) : lanes (ix2 p k) = BitVec.ofNat 32 k.val :=
  iota_single_apply .tc S256x1024 32 1 iota_S256x1024_d1_w32 (ix2 p k)

/-- The pair matrix of feature `f` at `(p, q)` is the coordinate block at `(p, f, q)`. -/
theorem pair_apply {α : Type} (f : ℕ) (hf : f < 16) (hs : S256x16x2.Slices ![0, f, 0] S256x1x2)
    (c : S256x16x2.Idx → α) (p : Fin 256) (q : Fin 2) :
    shapeCast S256x2 (extractStridedSlice S256x1x2 ![0, f, 0] c hs) shapeCasts_S256x1x2_S256x2 (ix2 p q)
      = c (ix3 p (⟨f, hf⟩ : Fin 16) q) := by
  refine (shapeCast_apply _ shapeCasts_S256x1x2_S256x2 (ix2 p q) (ix3 p (0 : Fin 1) q) ?_).trans ?_
  · rw [Shape.rowMajor_val_three, Shape.rowMajor_val_two]
    show (p.val * 1 + 0) * 2 + q.val = p.val * 2 + q.val
    omega
  · refine extractStridedSlice_apply _ c hs (ix3 p (0 : Fin 1) q) (ix3 p (⟨f, hf⟩ : Fin 16) q) fun a => ?_
    match a with
    | ⟨0, _⟩ => show p.val = 0 + p.val; omega
    | ⟨1, _⟩ => show f = f + 0; omega
    | ⟨2, _⟩ => show q.val = 0 + q.val; omega

/-- Component `k` of feature `f`, shifted, at point `p`: the coordinate minus one half. -/
theorem shifted_apply (f : ℕ) (hf : f < 16) (hs : S256x16x2.Slices ![0, f, 0] S256x1x2) (k : ℕ) (hk2 : k < 2)
    (hk : S256x2.Slices ![0, k] S256x1) (c : Vec Ideal S256x16x2 .f32) (p : Fin 256) :
    shifted k hk (pair f hs c) (ix2 p (0 : Fin 1)) = c (ix3 p (⟨f, hf⟩ : Fin 16) (⟨k, hk2⟩ : Fin 2)) - Bilerp.half := by
  unfold shifted
  rw [subf_apply, broadcast_apply]
  refine congrArg₂ (· - ·) ?_ rfl
  refine (extractStridedSlice_apply _ (pair f hs c) hk (ix2 p (0 : Fin 1)) (ix2 p (⟨k, hk2⟩ : Fin 2)) fun a => ?_).trans
    (pair_apply f hf hs c p ⟨k, hk2⟩)
  match a with
  | ⟨0, _⟩ => show p.val = 0 + p.val; omega
  | ⟨1, _⟩ => show k = k + 0; omega

/-- The spread weights at `(p, k)`: an `if` on the word of `k` against the two positions of row `p`. -/
theorem blend_apply (a0 a1 : IVec S256x1 32) (w : FVec Ideal S256x1 .f32) (p : Fin 256) (k : Fin 1024) :
    blend lanes a0 a1 w (ix2 p k)
      = if BitVec.ofNat 32 k.val = a0 (ix2 p (0 : Fin 1)) then Bilerp.one - w (ix2 p (0 : Fin 1))
        else if BitVec.ofNat 32 k.val = a1 (ix2 p (0 : Fin 1)) then w (ix2 p (0 : Fin 1)) else Bilerp.zero := by
  show Scalar.select (IntOp.cmpi .eq (lanes (ix2 p k)) (broadcastTo S256x1024 a0 broadcasts_S256x1_S256x1024 (ix2 p k)))
      (broadcastTo S256x1024
        (shapeCast S256x1 (subf (broadcast S256x1 (Scalar.ofBits .f32 0x3F800000#32)) w) shapeCasts_S256x1_S256x1)
        broadcasts_S256x1_S256x1024 (ix2 p k))
      (Scalar.select (IntOp.cmpi .eq (lanes (ix2 p k)) (broadcastTo S256x1024 a1 broadcasts_S256x1_S256x1024 (ix2 p k)))
        (broadcastTo S256x1024 (shapeCast S256x1 w shapeCasts_S256x1_S256x1) broadcasts_S256x1_S256x1024 (ix2 p k))
        (Scalar.ofBits .f32 0x00000000#32)) = _
  rw [select_cmpi_eq, select_cmpi_eq, lanes_apply, shapeCast_self, shapeCast_self,
    Cert.LibColumnBroadcast.broadcastTo_a1_ab_apply, Cert.LibColumnBroadcast.broadcastTo_a1_ab_apply,
    Cert.LibColumnBroadcast.broadcastTo_a1_ab_apply, Cert.LibColumnBroadcast.broadcastTo_a1_ab_apply]
  rfl

/-- The spread weights of a shifted coordinate column `v` at `(p, k)`: the one-hot blend of row `p`'s cell and weight. -/
theorem blendOf_apply (v : FVec Ideal S256x1 .f32) (p : Fin 256) (k : Fin 1024) :
    blend lanes (lov (cellv v)) (hiv (cellv v)) (fracv v) (ix2 p k)
      = Bilerp.hot (Bilerp.cell (v (ix2 p (0 : Fin 1)))) (Bilerp.frac (v (ix2 p (0 : Fin 1)))) (BitVec.ofNat 32 k.val) := by
  rw [blend_apply]
  rfl

/-- The source index over row `p` with the lane `k` inserted is `(p, k)`. -/
theorem lift_row (p : Fin 256) (k : Fin 1024) : reduces_S256x1024_S256.lift (ix1 p) k = ix2 p k := by
  funext a
  match a with
  | ⟨0, _⟩ => rfl
  | ⟨1, _⟩ => rfl

/-- The row sum of a [256, 1024] matrix, kept as a column, at `(p, 0)`: the sum of row `p`. -/
theorem rowSum_apply (v : FVec Ideal S256x1024 .f32) (p : Fin 256) :
    shapeCast S256x1 (multiReduction .add [1] S256 v 0x00000000#32 reduces_S256x1024_S256 (.inl rfl) rfl)
        shapeCasts_S256_S256x1 (ix2 p (0 : Fin 1))
      = ∑ k : Fin 1024, v (ix2 p k) := by
  refine (Cert.LibUnitAxisCasts.shapeCast_a_a1_apply _ shapeCasts_S256_S256x1 p).trans ?_
  refine (Ideal.multiReduction_add_single v 0x00000000#32 reduces_S256x1024_S256 (.inl rfl) rfl (ix1 p)).trans ?_
  exact Finset.sum_congr rfl fun k _ => congrArg v (lift_row p k)

/-- The contraction of a [256, 1024] matrix against a plane given as a [1, 1024, 1024] slab, at `(p, w)`. -/
theorem rows_apply (L : FVec Ideal S256x1024 .bf16) (slab : FVec Ideal S1x1024x1024 .bf16) (p : Fin 256) (w : Fin 1024) :
    matmul dot_S256x1024_S1024x1024_S256x1024_1_0_0_1_n_n none L
        (shapeCast S1024x1024 slab shapeCasts_S1x1024x1024_S1024x1024) (constant (F := Ideal) S256x1024 .f32 0x00000000#32)
        (ix2 p w)
      = ∑ h : Fin 1024, L (ix2 p h) * slab (ix3 (0 : Fin 1) h w) := by
  refine (Cert.LibPlainMatmul.matmul_zero_apply 256 1024 1024 none L
    (shapeCast S1024x1024 slab shapeCasts_S1x1024x1024_S1024x1024) p w).trans ?_
  exact Finset.sum_congr rfl fun h _ => congrArg (L (ix2 p h) * ·)
    (Cert.LibUnitAxisCasts.shapeCast_1ab_ab_apply slab shapeCasts_S1x1024x1024_S1024x1024 h w)

/-- THE CHAIN AT A POINT: row `p` of feature `f`'s chain is the one-hot arrangement of the plane at the point's pair. -/
theorem featVec_apply (f : ℕ) (hf : f < 16) (hs : S256x16x2.Slices ![0, f, 0] S256x1x2)
    (c : Vec Ideal S256x16x2 .f32) (slab : Vec Ideal S1x1024x1024 .bf16) (p : Fin 256) :
    featVec (F := Ideal) f hs c slab (ix2 p (0 : Fin 1))
      = Bilerp.kval (fun h w => slab (ix3 (0 : Fin 1) h w)) (c (ix3 p (⟨f, hf⟩ : Fin 16) (0 : Fin 2)))
          (c (ix3 p (⟨f, hf⟩ : Fin 16) (1 : Fin 2))) := by
  unfold featVec
  refine (rowSum_apply _ p).trans ?_
  unfold Bilerp.kval
  refine Finset.sum_congr rfl fun w _ => ?_
  rw [mulf_apply, rows_apply, blendOf_apply, shifted_apply f hf hs 0 (by decide)]
  refine congrArg (· * _) ?_
  refine Finset.sum_congr rfl fun h _ => ?_
  rw [truncf_apply, blendOf_apply, shifted_apply f hf hs 1 (by decide)]
  rfl

end Cert.KernelIdeal.KBody

end
-- ==== Proof.KBody.lean ====
/-
  What the body leaves in the output block, entry by entry.

  The body writes the output block column by column: column `f` receives the chain of feature `f` applied to the whole
  coordinate block and to plane `f` of the image block (the [1, 1024, 1024] slab at offset `(f, 0, 0)`). The sixteen
  columns tile the block, and each column's content is the restriction to that column of ONE function of the block's
  index `(p, f)`: the one-hot arrangement of plane `f` at the pair `coords[p, f, :]`. Hence the block holds that function.
-/
import proofs.«130787_j27539330302294_2_alg».proof.Proof.KBodyValue
import proofs.«130787_j27539330302294_2_alg».proof.Proof.Gen.KernelIdeal.Frame

noncomputable section

namespace Cert.KernelIdeal.KBody

open Cert.KernelIdeal Cert.KernelIdeal.Gen Idealize.ShloMosaic Idealize.ShloMosaic.ValueIdx Idealize.SL.Sem
open scoped BigOperators

/-- The one-hot arrangement of plane `f` at the pair of point `p`, feature `f`. -/
def entry (x0 : Vec Ideal S256x16x2 .f32) (x1 : Vec Ideal S16x1024x1024 .bf16) (p : Fin 256) (f : Fin 16) : EReal :=
  Bilerp.kval (fun h w => x1 (ix3 f h w)) (x0 (ix3 p f (0 : Fin 2))) (x0 (ix3 p f (1 : Fin 2)))

/-- The same as a function of the output block's index. -/
def block (x0 : Vec Ideal S256x16x2 .f32) (x1 : Vec Ideal S16x1024x1024 .bf16) : S256x16.Idx → EReal :=
  fun y => entry x0 x1 (y 0) (y 1)

/-- An index of a [256, 1] column is `(p, 0)`. -/
theorem exists_col (x : S256x1.Idx) : ∃ p : Fin 256, x = ix2 p (0 : Fin 1) :=
  ⟨x 0, funext fun a => by
    match a with
    | ⟨0, _⟩ => rfl
    | ⟨1, _⟩ => exact Subsingleton.elim (α := Fin 1) _ _⟩

theorem hz3 : (![0, 0, 0] : Fin 3 → Nat) = fun _ => 0 := funext fun a => by
  match a with
  | ⟨0, _⟩ => rfl
  | ⟨1, _⟩ => rfl
  | ⟨2, _⟩ => rfl

/-- COLUMN `f`: the chain of feature `f` over the whole coordinate block and slab `f`, at a column index, is the
    block's function at the index the column's rectangle places it at. -/
theorem piece_apply (x0 : Vec Ideal S256x16x2 .f32) (x1 : Vec Ideal S16x1024x1024 .bf16) (f : ℕ) (hf : f < 16)
    (hs : S256x16x2.Slices ![0, f, 0] S256x1x2)
    (inb1 : ∀ a, (![f, 0, 0] : Fin 3 → Nat) a + S1x1024x1024.size a ≤ S16x1024x1024.size a)
    (inb2 : ∀ a, (![0, f] : Fin 2 → Nat) a + S256x1.size a ≤ S256x16.size a)
    (x : (Rect.unit (s := S256x16) ![0, f] S256x1.size inb2).shape.Idx) :
    featVec (F := Ideal) f hs (View.ld x0 r0_0)
        (View.ld x1 (Rect.unit (s := S16x1024x1024) ![f, 0, 0] S1x1024x1024.size inb1)) x
      = block x0 x1 ((Rect.unit (s := S256x16) ![0, f] S256x1.size inb2).emb x) := by
  obtain ⟨p, rfl⟩ := exists_col x
  refine (featVec_apply f hf hs _ _ p).trans ?_
  have e : (Rect.unit (s := S256x16) ![0, f] S256x1.size inb2).emb (ix2 p (0 : Fin 1)) = ix2 p (⟨f, hf⟩ : Fin 16) := by
    funext a
    apply Fin.ext
    match a with
    | ⟨0, _⟩ => show 0 + 1 * p.val = p.val; omega
    | ⟨1, _⟩ => show f + 1 * 0 = f; omega
  have e1 : ∀ h w : Fin 1024,
      (Rect.unit (s := S16x1024x1024) ![f, 0, 0] S1x1024x1024.size inb1).idx (ix3 (0 : Fin 1) h w)
        = ix3 (⟨f, hf⟩ : Fin 16) h w := by
    intro h w
    funext a
    apply Fin.ext
    match a with
    | ⟨0, _⟩ => show f + 1 * 0 = f; omega
    | ⟨1, _⟩ => show 0 + 1 * h.val = h.val; omega
    | ⟨2, _⟩ => show 0 + 1 * w.val = w.val; omega
  rw [e, View.ld_unit_zero hz3]
  show Bilerp.kval (fun h w => x1 ((Rect.unit (s := S16x1024x1024) ![f, 0, 0] S1x1024x1024.size inb1).idx
      (ix3 (0 : Fin 1) h w))) _ _ = Bilerp.kval (fun h w => x1 (ix3 (⟨f, hf⟩ : Fin 16) h w)) _ _
  simp only [e1]

/-- THE BLOCK AFTER THE BODY: at point `p` and feature `f` the output block holds the one-hot arrangement of plane
    `f` at the pair `coords[p, f, :]`. -/
theorem out_apply (x0 : Vec Ideal S256x16x2 .f32) (x1 : Vec Ideal S16x1024x1024 .bf16) (p : Fin 256) (f : Fin 16) :
    out0_2 (F := Ideal) x0 x1 (ix2 p f)
      = Bilerp.kval (fun h w => x1 (ix3 f h w)) (x0 (ix3 p f (0 : Fin 2))) (x0 (ix3 p f (1 : Fin 2))) := by
  unfold out0_2
  refine (View.canon_apply_of_pieces (block x0 x1) _ (fun pc hpc x => ?_) (ix2 p f)
    (cover0_2 _ _ _ _ _ _ _ _ _ _ _ _ _ _ _ _ (ix2 p f))).trans rfl
  simp only [List.mem_cons, List.mem_nil_iff, or_false] at hpc
  rcases hpc with rfl | rfl | rfl | rfl | rfl | rfl | rfl | rfl | rfl | rfl | rfl | rfl | rfl | rfl | rfl | rfl
  · exact piece_apply x0 x1 15 (by decide) slices_S256x16x2_o0_15_0_S256x1x2 inb_S16x1024x1024_S1x1024x1024_15_0_0 inb_S256x16_S256x1_0_15 x
  · exact piece_apply x0 x1 14 (by decide) slices_S256x16x2_o0_14_0_S256x1x2 inb_S16x1024x1024_S1x1024x1024_14_0_0 inb_S256x16_S256x1_0_14 x
  · exact piece_apply x0 x1 13 (by decide) slices_S256x16x2_o0_13_0_S256x1x2 inb_S16x1024x1024_S1x1024x1024_13_0_0 inb_S256x16_S256x1_0_13 x
  · exact piece_apply x0 x1 12 (by decide) slices_S256x16x2_o0_12_0_S256x1x2 inb_S16x1024x1024_S1x1024x1024_12_0_0 inb_S256x16_S256x1_0_12 x
  · exact piece_apply x0 x1 11 (by decide) slices_S256x16x2_o0_11_0_S256x1x2 inb_S16x1024x1024_S1x1024x1024_11_0_0 inb_S256x16_S256x1_0_11 x
  · exact piece_apply x0 x1 10 (by decide) slices_S256x16x2_o0_10_0_S256x1x2 inb_S16x1024x1024_S1x1024x1024_10_0_0 inb_S256x16_S256x1_0_10 x
  · exact piece_apply x0 x1 9 (by decide) slices_S256x16x2_o0_9_0_S256x1x2 inb_S16x1024x1024_S1x1024x1024_9_0_0 inb_S256x16_S256x1_0_9 x
  · exact piece_apply x0 x1 8 (by decide) slices_S256x16x2_o0_8_0_S256x1x2 inb_S16x1024x1024_S1x1024x1024_8_0_0 inb_S256x16_S256x1_0_8 x
  · exact piece_apply x0 x1 7 (by decide) slices_S256x16x2_o0_7_0_S256x1x2 inb_S16x1024x1024_S1x1024x1024_7_0_0 inb_S256x16_S256x1_0_7 x
  · exact piece_apply x0 x1 6 (by decide) slices_S256x16x2_o0_6_0_S256x1x2 inb_S16x1024x1024_S1x1024x1024_6_0_0 inb_S256x16_S256x1_0_6 x
  · exact piece_apply x0 x1 5 (by decide) slices_S256x16x2_o0_5_0_S256x1x2 inb_S16x1024x1024_S1x1024x1024_5_0_0 inb_S256x16_S256x1_0_5 x
  · exact piece_apply x0 x1 4 (by decide) slices_S256x16x2_o0_4_0_S256x1x2 inb_S16x1024x1024_S1x1024x1024_4_0_0 inb_S256x16_S256x1_0_4 x
  · exact piece_apply x0 x1 3 (by decide) slices_S256x16x2_o0_3_0_S256x1x2 inb_S16x1024x1024_S1x1024x1024_3_0_0 inb_S256x16_S256x1_0_3 x
  · exact piece_apply x0 x1 2 (by decide) slices_S256x16x2_o0_2_0_S256x1x2 inb_S16x1024x1024_S1x1024x1024_2_0_0 inb_S256x16_S256x1_0_2 x
  · exact piece_apply x0 x1 1 (by decide) slices_S256x16x2_o0_1_0_S256x1x2 inb_S16x1024x1024_S1x1024x1024_1_0_0 inb_S256x16_S256x1_0_1 x
  · exact piece_apply x0 x1 0 (by decide) slices_S256x16x2_o0_0_0_S256x1x2 inb_S16x1024x1024_S1x1024x1024_0_0_0 inb_S256x16_S256x1_0_0 x

end Cert.KernelIdeal.KBody

end
-- ==== Proof.KRun.lean ====
/-
  From the blocks of the one-hot sampler to its whole output array.

  The grid has 4096 points. Point `t` reads rows `256·t … 256·t + 255` of the coordinate array (all 16 features, both
  coordinates), reads the whole image, and writes rows `256·t … 256·t + 255` of the output. The image the region reads is
  the argument image narrowed to bf16 before the region, which over the extended reals is the argument image itself.

  Given what the body computes at one (row, feature) of a block — the one-hot blend `Bilerp.kval` of the feature's plane at
  the row's coordinate pair — every block a point writes back is the matching block of ONE function of the argument arrays,
  `Bilerp.Kout`; the 4096 blocks tile the output's rows (row `r` lies in block `r / 256`), so the output array ends holding
  `Bilerp.Kout` of the arguments, and the arguments end as they began.
-/
import proofs.«130787_j27539330302294_2_alg».proof.Proof.Spec
import proofs.«130787_j27539330302294_2_alg».proof.Proof.Gen.KernelIdeal.Value
import Idealize.ShloMosaic.Lib.Pipeline.Value
import Idealize.ShloMosaic.Lib.ValueIdx
import Idealize.ShloMosaic.Lib.Tactic

noncomputable section

namespace Cert.KernelIdeal.KRun

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- WHAT THE BODY COMPUTES AT ONE ELEMENT: from a block of 256 rows of coordinates and the whole image, row `p`, feature `f`
    of the result is the one-hot blend of the plane `image[f, ·, ·]` at the pair `(coords[p, f, 0], coords[p, f, 1])`. -/
abbrev BodyAt : Prop := ∀ (x0 : Vec Ideal S256x16x2 .f32) (x1 : Vec Ideal S16x1024x1024 .bf16) (p : Fin 256) (f : Fin 16),
    Gen.out0_2 (F := Ideal) x0 x1 (ix2 p f) = Cert.Bilerp.kval (fun h w => x1 (ix3 f h w)) (x0 (ix3 p f (0 : Fin 2))) (x0 (ix3 p f (1 : Fin 2)))

/-- The three index maps at every grid point: the coordinates' block index is `(t, 0, 0)`, the image's `(0, 0, 0)`,
    the output's `(t, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The image the region finds is the argument image: narrowing to bf16 is the identity on extended reals. -/
theorem image_entry (c : Dev nD) :
    (V m c main_v0 : S16x1024x1024.Idx → EReal) = (m ((c : Thread nD τ).loc main_arg0) : S16x1024x1024.Idx → EReal) := by
  have e : (V m c main_v0 : S16x1024x1024.Idx → EReal)
      = (truncf .bf16 (m ((c : Thread nD τ).loc main_arg0) : FVec Ideal S16x1024x1024 .f32) bitsLt_bf16_f32 : FVec Ideal S16x1024x1024 .bf16) := by
    dsimp only [Gen.V, Gen.hostOps0]; after_results
  rw [e]; rfl

/-- Row `p` of the coordinates' block at point `t` is row `256·t + p` of the coordinate array. -/
theorem coords_block (c : Dev nD) (t : Fin cfg0.N) (p : Fin 256) (f : Fin 16) (k : Fin 2) (P : Fin 1048576)
    (hP : P.val = t.val * 256 + p.val) :
    (iblk m c 0 t : Vec Ideal S256x16x2 .f32) (ix3 p f k)
      = (m ((c : Thread nD τ).loc main_arg1) : S1048576x16x2.Idx → EReal) (ix3 P f k) := by
  obtain ⟨e0, e1, e2, -⟩ := idx_facts t
  show V m c main_arg1 (((cfg0.win 0).blk t).view.emb (ix3 p f k)) = _
  rw [V_main_arg1]
  refine congrArg _ ?_
  funext a; apply Fin.ext
  match a with
  | ⟨0, _⟩ => show win0_0.index t (0 : Fin 3) * 256 + 1 * p.val = P.val; omega
  | ⟨1, _⟩ => show win0_0.index t (1 : Fin 3) * 16 + 1 * f.val = f.val; omega
  | ⟨2, _⟩ => show win0_0.index t (2 : Fin 3) * 2 + 1 * k.val = k.val; omega

/-- The image's block at every point is the whole argument image. -/
theorem image_block (c : Dev nD) (t : Fin cfg0.N) (f : Fin 16) (h w : Fin 1024) :
    (iblk m c 1 t : Vec Ideal S16x1024x1024 .bf16) (ix3 f h w)
      = (m ((c : Thread nD τ).loc main_arg0) : S16x1024x1024.Idx → EReal) (ix3 f h w) := by
  obtain ⟨-, -, -, e0, e1, e2, -⟩ := idx_facts t
  show V m c main_v0 (((cfg0.win 1).blk t).view.emb (ix3 f h w)) = _
  rw [image_entry]
  refine congrArg _ ?_
  funext a; apply Fin.ext
  match a with
  | ⟨0, _⟩ => show win0_1.index t (0 : Fin 3) * 16 + 1 * f.val = f.val; omega
  | ⟨1, _⟩ => show win0_1.index t (1 : Fin 3) * 1024 + 1 * h.val = h.val; omega
  | ⟨2, _⟩ => show win0_1.index t (2 : Fin 3) * 1024 + 1 * w.val = w.val; omega

/-- Row `p`, feature `f` of the output's block at point `t` sits at row `256·t + p`, feature `f` of the output array. -/
theorem out_emb (t : Fin cfg0.N) (p : Fin 256) (f : Fin 16) (P : Fin 1048576) (hP : P.val = t.val * 256 + p.val) :
    ((cfg0.win 2).blk t).view.emb (ix2 p f) = (ix2 P f : S1048576x16.Idx) := by
  obtain ⟨-, -, -, -, -, -, e0, e1⟩ := idx_facts t
  funext a; apply Fin.ext
  match a with
  | ⟨0, _⟩ => show win0_2.index t (0 : Fin 2) * 256 + 1 * p.val = P.val; omega
  | ⟨1, _⟩ => show win0_2.index t (1 : Fin 2) * 16 + 1 * f.val = f.val; omega

/-- WHAT POINT `t` WRITES BACK is block `t` of `Bilerp.Kout` of the argument arrays: at row `p`, feature `f` both are the
    one-hot blend of the plane `image[f, ·, ·]` at the coordinate pair of row `256·t + p`, feature `f`. -/
theorem flushed_eq (hbody : BodyAt) (c : Dev nD) (t : Fin cfg0.N) :
    (dats m 0 c).flushed 2 t = ((cfg0.win 2).blk t).view.read (Elt Ideal)
      (Cert.Bilerp.Kout (m ((c : Thread nD τ).loc main_arg0)) (m ((c : Thread nD τ).loc main_arg1))) := by
  rw [Value.flushed2]
  funext y
  obtain ⟨p, f, rfl⟩ : ∃ (p : Fin 256) (f : Fin 16), y = ix2 p f := ⟨y 0, y 1, eq_ix2 y⟩
  have hP : t.val * 256 + p.val < 1048576 := by
    have ht : t.val < 4096 := lt_of_lt_of_eq t.isLt (N_0 : cfg0.N = 4096)
    omega
  refine (hbody (iblk m c 0 t) (iblk m c 1 t) p f).trans ?_
  show _ = Cert.Bilerp.Kout _ _ (((cfg0.win 2).blk t).view.emb (ix2 p f))
  rw [out_emb t p f ⟨_, hP⟩ rfl, coords_block m c t p f 0 ⟨_, hP⟩ rfl, coords_block m c t p f 1 ⟨_, hP⟩ rfl]
  have hg : (fun h w => (iblk m c 1 t : Vec Ideal S16x1024x1024 .bf16) (ix3 f h w))
      = fun h w => (m ((c : Thread nD τ).loc main_arg0) : S16x1024x1024.Idx → EReal) (ix3 f h w) :=
    funext fun h => funext fun w => image_block m c t f h w
  rw [hg]
  rfl

/-- An index of the output array is in point `t`'s block iff each coordinate is in the block's range on its axis. -/
theorem mem_block (t : Fin cfg0.N) (i : S1048576x16.Idx) :
    i ∈ ((cfg0.win 2).blk t).view.set ↔ ∀ a : Fin 2, win0_2.index t a * S256x16.size a ≤ (i a).val ∧ (i a).val < win0_2.index t a * S256x16.size a + S256x16.size a := by
  show i ∈ ((View.whole main_v1).slice (win0_2.rect t)).set ↔ _
  rw [View.set_slice_whole, Rect.mem_set_unit]
  exact Iff.rfl

/-- THE BLOCKS TILE THE OUTPUT: row `r` lies in the block of point `r / 256`, since `256·(r / 256) ≤ r < 256·(r / 256) + 256`,
    and every block spans all 16 features. -/
theorem cover (i : S1048576x16.Idx) :
    ∃ t : Fin cfg0.N, (cfg0.win 2).flush t = true ∧ i ∈ ((cfg0.win 2).blk t).view.set := by
  have hi0 : (i 0).val < 1048576 := (i 0).isLt
  have hi1 : (i 1).val < 16 := (i 1).isLt
  have hN : cfg0.N = 4096 := N_0
  have ht : (i 0).val / 256 < cfg0.N := by rw [hN]; omega
  refine ⟨⟨(i 0).val / 256, ht⟩, flush0_2 _, ?_⟩
  rw [mem_block]
  obtain ⟨-, -, -, -, -, -, e0, e1⟩ := idx_facts ⟨(i 0).val / 256, ht⟩
  have e0' : win0_2.index ⟨(i 0).val / 256, ht⟩ (0 : Fin 2) = (i 0).val / 256 := e0
  intro a
  match a with
  | ⟨0, _⟩ =>
    show win0_2.index ⟨(i 0).val / 256, ht⟩ (0 : Fin 2) * 256 ≤ (i 0).val ∧ (i 0).val < win0_2.index ⟨(i 0).val / 256, ht⟩ (0 : Fin 2) * 256 + 256
    omega
  | ⟨1, _⟩ =>
    show win0_2.index ⟨(i 0).val / 256, ht⟩ (1 : Fin 2) * 16 ≤ (i 1).val ∧ (i 1).val < win0_2.index ⟨(i 0).val / 256, ht⟩ (1 : Fin 2) * 16 + 16
    omega

/-- THE OUTPUT ARRAY after the run is `Bilerp.Kout` of the argument arrays. -/
theorem final (hbody : BodyAt) (c : Dev nD) :
    (dats m 0 c).arrAt 2 cfg0.N = Cert.Bilerp.Kout (m ((c : Thread nD τ).loc main_arg0)) (m ((c : Thread nD τ).loc main_arg1)) :=
  (dats m 0 c).arrAt_eq_of_cover 2 (Cert.Bilerp.Kout (m ((c : Thread nD τ).loc main_arg0)) (m ((c : Thread nD τ).loc main_arg1)))
    (fun t _ => flushed_eq m hbody c t) cover

/-- THE RUN: every weakly fair execution terminates; the output array ends at the one-hot blend of each feature's plane at
    each (row, feature)'s coordinate pair, and the two argument arrays end unchanged. -/
theorem run (hbody : BodyAt) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = Cert.Bilerp.Kout (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m hbody c), (h c).2⟩) (Value.run_blocks m ρ)

end Cert.KernelIdeal.KRun

end
-- ==== Proof.RefOps.lean ====
/-
  The reference's @main as a straight line: its host operations in program order, each of the four calls of the
  integer-remainder function spelt out at its call site over that call's own buffers (the callee's twenty-one
  operations, its nested select included). Nothing is proved here; the list is what the reference's run and the
  reading of its result are stated over.
-/
import proofs.«130787_j27539330302294_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 231 host operations, in order. -/
abbrev ops : List (HloOp τ sig (Elt F)) :=
  [ StableHlo.unary main_arg1 main_v0 ((extractStridedSlice S1048576x16x1 ![0, 0, 0] · slices_S1048576x16x2_S1048576x16x1_0_0_0) : (⟨S1048576x16x2, .f32⟩ : BufTy).Contents (Elt F) → (⟨S1048576x16x1, .f32⟩ : BufTy).Contents (Elt F)),
    StableHlo.reshape main_v0 main_v1 rfl shapeCasts_S1048576x16x1_S1048576x16,
    StableHlo.nullary main_cst (constant S_ .f32 0x3F000000#32),
    StableHlo.unary main_cst main_v2 (broadcastInDim S1048576x16 ![] bcast_S_S1048576x16 : (⟨S_, .f32⟩ : BufTy).Contents (Elt F) → (⟨S1048576x16, .f32⟩ : BufTy).Contents (Elt F)),
    StableHlo.binary main_v1 main_v2 main_v3 (subf : (⟨S1048576x16, .f32⟩ : BufTy).Contents (Elt F) → (⟨S1048576x16, .f32⟩ : BufTy).Contents (Elt F) → (⟨S1048576x16, .f32⟩ : BufTy).Contents (Elt F)),
    StableHlo.unary main_arg1 main_v4 ((extractStridedSlice S1048576x16x1 ![0, 0, 1] · slices_S1048576x16x2_S1048576x16x1_0_0_1) : (⟨S1048576x16x2, .f32⟩ : BufTy).Contents (Elt F) → (⟨S1048576x16x1, .f32⟩ : BufTy).Contents (Elt F)),
    StableHlo.reshape main_v4 main_v5 rfl shapeCasts_S1048576x16x1_S1048576x16,
    StableHlo.nullary main_cst_0 (constant S_ .f32 0x3F000000#32),
    StableHlo.unary main_cst_0 main_v6 (broadcastInDim S1048576x16 ![] bcast_S_S1048576x16 : (⟨S_, .f32⟩ : BufTy).Contents (Elt F) → (⟨S1048576x16, .f32⟩ : BufTy).Contents (Elt F)),
    StableHlo.binary main_v5 main_v6 main_v7 (subf : (⟨S1048576x16, .f32⟩ : BufTy).Contents (Elt F) → (⟨S1048576x16, .f32⟩ : BufTy).Contents (Elt F) → (⟨S1048576x16, .f32⟩ : BufTy).Contents (Elt F)),
    StableHlo.unary main_v3 main_v8 (Host.floor : (⟨S1048576x16, .f32⟩ : BufTy).Contents (Elt F) → (⟨S1048576x16, .f32⟩ : BufTy).Contents (Elt F)),
    StableHlo.unary main_v7 main_v9 (Host.floor : (⟨S1048576x16, .f32⟩ : BufTy).Contents (Elt F) → (⟨S1048576x16, .f32⟩ : BufTy).Contents (Elt F)),
    StableHlo.binary main_v3 main_v8 main_v10 (subf : (⟨S1048576x16, .f32⟩ : BufTy).Contents (Elt F) → (⟨S1048576x16, .f32⟩ : BufTy).Contents (Elt F) → (⟨S1048576x16, .f32⟩ : BufTy).Contents (Elt F)),
    StableHlo.binary main_v7 main_v9 main_v11 (subf : (⟨S1048576x16, .f32⟩ : BufTy).Contents (Elt F) → (⟨S1048576x16, .f32⟩ : BufTy).Contents (Elt F) → (⟨S1048576x16, .f32⟩ : BufTy).Contents (Elt F)),
    StableHlo.unary main_v8 main_v12 (fptosi 32 : (⟨S1048576x16, .f32⟩ : BufTy).Contents (Elt F) → (⟨S1048576x16, .i32⟩ : BufTy).Contents (Elt F)),
    StableHlo.nullary main_c (constantI S_ 32 1024#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S1048576x16 ![] bcast_S_S1048576x16),
    StableHlo.TRef.binary (.of main_v12 : StableHlo.TRef sig ⟨S1048576x16, .i32⟩) main_call0.v3 main_call0.v4 Host.remsi,
    StableHlo.TRef.nullary main_call0.c_1 (constantI S_ 32 0#32),
    StableHlo.TRef.unary main_call0.c_1 main_call0.v5 (broadcastInDim S1048576x16 ![] bcast_S_S1048576x16),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S1048576x16 ![] bcast_S_S1048576x16),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S1048576x16 ![] bcast_S_S1048576x16),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S1048576x16 ![] bcast_S_S1048576x16),
    StableHlo.TRef.binary main_call0.v4 main_call0.v13 main_call0.v14 addi,
    StableHlo.TRef.ternary main_call0.v12 main_call0.v14 main_call0.v4 main_call0.v15 select,
    StableHlo.unary main_v8 main_v14 (fptosi 32 : (⟨S1048576x16, .f32⟩ : BufTy).Contents (Elt F) → (⟨S1048576x16, .i32⟩ : BufTy).Contents (Elt F)),
    StableHlo.nullary main_c_1 (constantI S_ 32 1#32),
    StableHlo.unary main_c_1 main_v15 (broadcastInDim S1048576x16 ![] bcast_S_S1048576x16 : (⟨S_, .i32⟩ : BufTy).Contents (Elt F) → (⟨S1048576x16, .i32⟩ : BufTy).Contents (Elt F)),
    StableHlo.binary main_v14 main_v15 main_v16 (addi : (⟨S1048576x16, .i32⟩ : BufTy).Contents (Elt F) → (⟨S1048576x16, .i32⟩ : BufTy).Contents (Elt F) → (⟨S1048576x16, .i32⟩ : BufTy).Contents (Elt F)),
    StableHlo.nullary main_c_2 (constantI S_ 32 1024#32),
    StableHlo.TRef.unary (.of main_c_2 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S1048576x16 ![] bcast_S_S1048576x16),
    StableHlo.TRef.binary (.of main_v16 : StableHlo.TRef sig ⟨S1048576x16, .i32⟩) main_call1.v3 main_call1.v4 Host.remsi,
    StableHlo.TRef.nullary main_call1.c_1 (constantI S_ 32 0#32),
    StableHlo.TRef.unary main_call1.c_1 main_call1.v5 (broadcastInDim S1048576x16 ![] bcast_S_S1048576x16),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S1048576x16 ![] bcast_S_S1048576x16),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S1048576x16 ![] bcast_S_S1048576x16),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S1048576x16 ![] bcast_S_S1048576x16),
    StableHlo.TRef.binary main_call1.v4 main_call1.v13 main_call1.v14 addi,
    StableHlo.TRef.ternary main_call1.v12 main_call1.v14 main_call1.v4 main_call1.v15 select,
    StableHlo.unary main_v9 main_v18 (fptosi 32 : (⟨S1048576x16, .f32⟩ : BufTy).Contents (Elt F) → (⟨S1048576x16, .i32⟩ : BufTy).Contents (Elt F)),
    StableHlo.nullary main_c_3 (constantI S_ 32 1024#32),
    StableHlo.TRef.unary (.of main_c_3 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S1048576x16 ![] bcast_S_S1048576x16),
    StableHlo.TRef.binary (.of main_v18 : StableHlo.TRef sig ⟨S1048576x16, .i32⟩) main_call2.v3 main_call2.v4 Host.remsi,
    StableHlo.TRef.nullary main_call2.c_1 (constantI S_ 32 0#32),
    StableHlo.TRef.unary main_call2.c_1 main_call2.v5 (broadcastInDim S1048576x16 ![] bcast_S_S1048576x16),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S1048576x16 ![] bcast_S_S1048576x16),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S1048576x16 ![] bcast_S_S1048576x16),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S1048576x16 ![] bcast_S_S1048576x16),
    StableHlo.TRef.binary main_call2.v4 main_call2.v13 main_call2.v14 addi,
    StableHlo.TRef.ternary main_call2.v12 main_call2.v14 main_call2.v4 main_call2.v15 select,
    StableHlo.unary main_v9 main_v20 (fptosi 32 : (⟨S1048576x16, .f32⟩ : BufTy).Contents (Elt F) → (⟨S1048576x16, .i32⟩ : BufTy).Contents (Elt F)),
    StableHlo.nullary main_c_4 (constantI S_ 32 1#32),
    StableHlo.unary main_c_4 main_v21 (broadcastInDim S1048576x16 ![] bcast_S_S1048576x16 : (⟨S_, .i32⟩ : BufTy).Contents (Elt F) → (⟨S1048576x16, .i32⟩ : BufTy).Contents (Elt F)),
    StableHlo.binary main_v20 main_v21 main_v22 (addi : (⟨S1048576x16, .i32⟩ : BufTy).Contents (Elt F) → (⟨S1048576x16, .i32⟩ : BufTy).Contents (Elt F) → (⟨S1048576x16, .i32⟩ : BufTy).Contents (Elt F)),
    StableHlo.nullary main_c_5 (constantI S_ 32 1024#32),
    StableHlo.TRef.unary (.of main_c_5 : StableHlo.TRef sig ⟨S_, .i32⟩) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S1048576x16 ![] bcast_S_S1048576x16),
    StableHlo.TRef.binary (.of main_v22 : StableHlo.TRef sig ⟨S1048576x16, .i32⟩) main_call3.v3 main_call3.v4 Host.remsi,
    StableHlo.TRef.nullary main_call3.c_1 (constantI S_ 32 0#32),
    StableHlo.TRef.unary main_call3.c_1 main_call3.v5 (broadcastInDim S1048576x16 ![] bcast_S_S1048576x16),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S1048576x16 ![] bcast_S_S1048576x16),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S1048576x16 ![] bcast_S_S1048576x16),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S1048576x16 ![] bcast_S_S1048576x16),
    StableHlo.TRef.binary main_call3.v4 main_call3.v13 main_call3.v14 addi,
    StableHlo.TRef.ternary main_call3.v12 main_call3.v14 main_call3.v4 main_call3.v15 select,
    StableHlo.nullary main_v24 (iotaInDim S16 32 0),
    StableHlo.unary main_v24 main_v25 (broadcastInDim S1x16 ![1] bcast_S16_S1x16_1 : (⟨S16, .i32⟩ : BufTy).Contents (Elt F) → (⟨S1x16, .i32⟩ : BufTy).Contents (Elt F)),
    StableHlo.nullary main_c_6 (constantI S_ 32 0#32),
    StableHlo.unary main_c_6 main_v26 (broadcastInDim S1x16 ![] bcast_S_S1x16 : (⟨S_, .i32⟩ : BufTy).Contents (Elt F) → (⟨S1x16, .i32⟩ : BufTy).Contents (Elt F)),
    StableHlo.binary main_v25 main_v26 main_v27 (cmpi .slt : (⟨S1x16, .i32⟩ : BufTy).Contents (Elt F) → (⟨S1x16, .i32⟩ : BufTy).Contents (Elt F) → (⟨S1x16, .i1⟩ : BufTy).Contents (Elt F)),
    StableHlo.nullary main_c_7 (constantI S_ 32 16#32),
    StableHlo.unary main_c_7 main_v28 (broadcastInDim S1x16 ![] bcast_S_S1x16 : (⟨S_, .i32⟩ : BufTy).Contents (Elt F) → (⟨S1x16, .i32⟩ : BufTy).Contents (Elt F)),
    StableHlo.binary main_v25 main_v28 main_v29 (addi : (⟨S1x16, .i32⟩ : BufTy).Contents (Elt F) → (⟨S1x16, .i32⟩ : BufTy).Contents (Elt F) → (⟨S1x16, .i32⟩ : BufTy).Contents (Elt F)),
    StableHlo.ternary main_v27 main_v29 main_v25 main_v30 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    StableHlo.nullary main_c_8 (constantI S_ 32 0#32),
    StableHlo.unary main_c_8 main_v31 (broadcastInDim S1048576x16 ![] bcast_S_S1048576x16 : (⟨S_, .i32⟩ : BufTy).Contents (Elt F) → (⟨S1048576x16, .i32⟩ : BufTy).Contents (Elt F)),
    StableHlo.binary main_v19 main_v31 main_v32 (cmpi .slt : (⟨S1048576x16, .i32⟩ : BufTy).Contents (Elt F) → (⟨S1048576x16, .i32⟩ : BufTy).Contents (Elt F) → (⟨S1048576x16, .i1⟩ : BufTy).Contents (Elt F)),
    StableHlo.nullary main_c_9 (constantI S_ 32 1024#32),
    StableHlo.unary main_c_9 main_v33 (broadcastInDim S1048576x16 ![] bcast_S_S1048576x16 : (⟨S_, .i32⟩ : BufTy).Contents (Elt F) → (⟨S1048576x16, .i32⟩ : BufTy).Contents (Elt F)),
    StableHlo.binary main_v19 main_v33 main_v34 (addi : (⟨S1048576x16, .i32⟩ : BufTy).Contents (Elt F) → (⟨S1048576x16, .i32⟩ : BufTy).Contents (Elt F) → (⟨S1048576x16, .i32⟩ : BufTy).Contents (Elt F)),
    StableHlo.ternary main_v32 main_v34 main_v19 main_v35 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    StableHlo.nullary main_c_10 (constantI S_ 32 0#32),
    StableHlo.unary main_c_10 main_v36 (broadcastInDim S1048576x16 ![] bcast_S_S1048576x16 : (⟨S_, .i32⟩ : BufTy).Contents (Elt F) → (⟨S1048576x16, .i32⟩ : BufTy).Contents (Elt F)),
    StableHlo.binary main_v13 main_v36 main_v37 (cmpi .slt : (⟨S1048576x16, .i32⟩ : BufTy).Contents (Elt F) → (⟨S1048576x16, .i32⟩ : BufTy).Contents (Elt F) → (⟨S1048576x16, .i1⟩ : BufTy).Contents (Elt F)),
    StableHlo.nullary main_c_11 (constantI S_ 32 1024#32),
    StableHlo.unary main_c_11 main_v38 (broadcastInDim S1048576x16 ![] bcast_S_S1048576x16 : (⟨S_, .i32⟩ : BufTy).Contents (Elt F) → (⟨S1048576x16, .i32⟩ : BufTy).Contents (Elt F)),
    StableHlo.binary main_v13 main_v38 main_v39 (addi : (⟨S1048576x16, .i32⟩ : BufTy).Contents (Elt F) → (⟨S1048576x16, .i32⟩ : BufTy).Contents (Elt F) → (⟨S1048576x16, .i32⟩ : BufTy).Contents (Elt F)),
    StableHlo.ternary main_v37 main_v39 main_v13 main_v40 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    StableHlo.unary main_v30 main_v41 (broadcastInDim S1048576x16 ![0, 1] bcast_S1x16_S1048576x16_0_1 : (⟨S1x16, .i32⟩ : BufTy).Contents (Elt F) → (⟨S1048576x16, .i32⟩ : BufTy).Contents (Elt F)),
    StableHlo.unary main_v41 main_v42 (broadcastInDim S1048576x16x1 ![0, 1] bcast_S1048576x16_S1048576x16x1_0_1 : (⟨S1048576x16, .i32⟩ : BufTy).Contents (Elt F) → (⟨S1048576x16x1, .i32⟩ : BufTy).Contents (Elt F)),
    StableHlo.unary main_v35 main_v43 (broadcastInDim S1048576x16x1 ![0, 1] bcast_S1048576x16_S1048576x16x1_0_1 : (⟨S1048576x16, .i32⟩ : BufTy).Contents (Elt F) → (⟨S1048576x16x1, .i32⟩ : BufTy).Contents (Elt F)),
    StableHlo.unary main_v40 main_v44 (broadcastInDim S1048576x16x1 ![0, 1] bcast_S1048576x16_S1048576x16x1_0_1 : (⟨S1048576x16, .i32⟩ : BufTy).Contents (Elt F) → (⟨S1048576x16x1, .i32⟩ : BufTy).Contents (Elt F)),
    StableHlo.nary ![main_v42, main_v43, main_v44] main_v45 (fun u => concatenate S1048576x16x3 2 [⟨S1048576x16x1, u 0⟩, ⟨S1048576x16x1, u 1⟩, ⟨S1048576x16x1, u 2⟩] concatenates_S1048576x16x1_S1048576x16x1_S1048576x16x1_S1048576x16x3_d2),
    StableHlo.binary main_arg0 main_v45 main_v46 ((fun x i => Host.gather gather_S16x1024x1024_S1048576x16x3_S1048576x16_n_012_n_n_012_2_111 x i) : (⟨S16x1024x1024, .f32⟩ : BufTy).Contents (Elt F) → (⟨S1048576x16x3, .i32⟩ : BufTy).Contents (Elt F) → (⟨S1048576x16, .f32⟩ : BufTy).Contents (Elt F)),
    StableHlo.nullary main_c_12 (constantI S_ 32 0#32),
    StableHlo.unary main_c_12 main_v47 (broadcastInDim S1x16 ![] bcast_S_S1x16 : (⟨S_, .i32⟩ : BufTy).Contents (Elt F) → (⟨S1x16, .i32⟩ : BufTy).Contents (Elt F)),
    StableHlo.binary main_v25 main_v47 main_v48 (cmpi .slt : (⟨S1x16, .i32⟩ : BufTy).Contents (Elt F) → (⟨S1x16, .i32⟩ : BufTy).Contents (Elt F) → (⟨S1x16, .i1⟩ : BufTy).Contents (Elt F)),
    StableHlo.nullary main_c_13 (constantI S_ 32 16#32),
    StableHlo.unary main_c_13 main_v49 (broadcastInDim S1x16 ![] bcast_S_S1x16 : (⟨S_, .i32⟩ : BufTy).Contents (Elt F) → (⟨S1x16, .i32⟩ : BufTy).Contents (Elt F)),
    StableHlo.binary main_v25 main_v49 main_v50 (addi : (⟨S1x16, .i32⟩ : BufTy).Contents (Elt F) → (⟨S1x16, .i32⟩ : BufTy).Contents (Elt F) → (⟨S1x16, .i32⟩ : BufTy).Contents (Elt F)),
    StableHlo.ternary main_v48 main_v50 main_v25 main_v51 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    StableHlo.nullary main_c_14 (constantI S_ 32 0#32),
    StableHlo.unary main_c_14 main_v52 (broadcastInDim S1048576x16 ![] bcast_S_S1048576x16 : (⟨S_, .i32⟩ : BufTy).Contents (Elt F) → (⟨S1048576x16, .i32⟩ : BufTy).Contents (Elt F)),
    StableHlo.binary main_v19 main_v52 main_v53 (cmpi .slt : (⟨S1048576x16, .i32⟩ : BufTy).Contents (Elt F) → (⟨S1048576x16, .i32⟩ : BufTy).Contents (Elt F) → (⟨S1048576x16, .i1⟩ : BufTy).Contents (Elt F)),
    StableHlo.nullary main_c_15 (constantI S_ 32 1024#32),
    StableHlo.unary main_c_15 main_v54 (broadcastInDim S1048576x16 ![] bcast_S_S1048576x16 : (⟨S_, .i32⟩ : BufTy).Contents (Elt F) → (⟨S1048576x16, .i32⟩ : BufTy).Contents (Elt F)),
    StableHlo.binary main_v19 main_v54 main_v55 (addi : (⟨S1048576x16, .i32⟩ : BufTy).Contents (Elt F) → (⟨S1048576x16, .i32⟩ : BufTy).Contents (Elt F) → (⟨S1048576x16, .i32⟩ : BufTy).Contents (Elt F)),
    StableHlo.ternary main_v53 main_v55 main_v19 main_v56 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    StableHlo.nullary main_c_16 (constantI S_ 32 0#32),
    StableHlo.unary main_c_16 main_v57 (broadcastInDim S1048576x16 ![] bcast_S_S1048576x16 : (⟨S_, .i32⟩ : BufTy).Contents (Elt F) → (⟨S1048576x16, .i32⟩ : BufTy).Contents (Elt F)),
    StableHlo.binary main_v17 main_v57 main_v58 (cmpi .slt : (⟨S1048576x16, .i32⟩ : BufTy).Contents (Elt F) → (⟨S1048576x16, .i32⟩ : BufTy).Contents (Elt F) → (⟨S1048576x16, .i1⟩ : BufTy).Contents (Elt F)),
    StableHlo.nullary main_c_17 (constantI S_ 32 1024#32),
    StableHlo.unary main_c_17 main_v59 (broadcastInDim S1048576x16 ![] bcast_S_S1048576x16 : (⟨S_, .i32⟩ : BufTy).Contents (Elt F) → (⟨S1048576x16, .i32⟩ : BufTy).Contents (Elt F)),
    StableHlo.binary main_v17 main_v59 main_v60 (addi : (⟨S1048576x16, .i32⟩ : BufTy).Contents (Elt F) → (⟨S1048576x16, .i32⟩ : BufTy).Contents (Elt F) → (⟨S1048576x16, .i32⟩ : BufTy).Contents (Elt F)),
    StableHlo.ternary main_v58 main_v60 main_v17 main_v61 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    StableHlo.unary main_v51 main_v62 (broadcastInDim S1048576x16 ![0, 1] bcast_S1x16_S1048576x16_0_1 : (⟨S1x16, .i32⟩ : BufTy).Contents (Elt F) → (⟨S1048576x16, .i32⟩ : BufTy).Contents (Elt F)),
    StableHlo.unary main_v62 main_v63 (broadcastInDim S1048576x16x1 ![0, 1] bcast_S1048576x16_S1048576x16x1_0_1 : (⟨S1048576x16, .i32⟩ : BufTy).Contents (Elt F) → (⟨S1048576x16x1, .i32⟩ : BufTy).Contents (Elt F)),
    StableHlo.unary main_v56 main_v64 (broadcastInDim S1048576x16x1 ![0, 1] bcast_S1048576x16_S1048576x16x1_0_1 : (⟨S1048576x16, .i32⟩ : BufTy).Contents (Elt F) → (⟨S1048576x16x1, .i32⟩ : BufTy).Contents (Elt F)),
    StableHlo.unary main_v61 main_v65 (broadcastInDim S1048576x16x1 ![0, 1] bcast_S1048576x16_S1048576x16x1_0_1 : (⟨S1048576x16, .i32⟩ : BufTy).Contents (Elt F) → (⟨S1048576x16x1, .i32⟩ : BufTy).Contents (Elt F)),
    StableHlo.nary ![main_v63, main_v64, main_v65] main_v66 (fun u => concatenate S1048576x16x3 2 [⟨S1048576x16x1, u 0⟩, ⟨S1048576x16x1, u 1⟩, ⟨S1048576x16x1, u 2⟩] concatenates_S1048576x16x1_S1048576x16x1_S1048576x16x1_S1048576x16x3_d2),
    StableHlo.binary main_arg0 main_v66 main_v67 ((fun x i => Host.gather gather_S16x1024x1024_S1048576x16x3_S1048576x16_n_012_n_n_012_2_111 x i) : (⟨S16x1024x1024, .f32⟩ : BufTy).Contents (Elt F) → (⟨S1048576x16x3, .i32⟩ : BufTy).Contents (Elt F) → (⟨S1048576x16, .f32⟩ : BufTy).Contents (Elt F)),
    StableHlo.nullary main_c_18 (constantI S_ 32 0#32),
    StableHlo.unary main_c_18 main_v68 (broadcastInDim S1x16 ![] bcast_S_S1x16 : (⟨S_, .i32⟩ : BufTy).Contents (Elt F) → (⟨S1x16, .i32⟩ : BufTy).Contents (Elt F)),
    StableHlo.binary main_v25 main_v68 main_v69 (cmpi .slt : (⟨S1x16, .i32⟩ : BufTy).Contents (Elt F) → (⟨S1x16, .i32⟩ : BufTy).Contents (Elt F) → (⟨S1x16, .i1⟩ : BufTy).Contents (Elt F)),
    StableHlo.nullary main_c_19 (constantI S_ 32 16#32),
    StableHlo.unary main_c_19 main_v70 (broadcastInDim S1x16 ![] bcast_S_S1x16 : (⟨S_, .i32⟩ : BufTy).Contents (Elt F) → (⟨S1x16, .i32⟩ : BufTy).Contents (Elt F)),
    StableHlo.binary main_v25 main_v70 main_v71 (addi : (⟨S1x16, .i32⟩ : BufTy).Contents (Elt F) → (⟨S1x16, .i32⟩ : BufTy).Contents (Elt F) → (⟨S1x16, .i32⟩ : BufTy).Contents (Elt F)),
    StableHlo.ternary main_v69 main_v71 main_v25 main_v72 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    StableHlo.nullary main_c_20 (constantI S_ 32 0#32),
    StableHlo.unary main_c_20 main_v73 (broadcastInDim S1048576x16 ![] bcast_S_S1048576x16 : (⟨S_, .i32⟩ : BufTy).Contents (Elt F) → (⟨S1048576x16, .i32⟩ : BufTy).Contents (Elt F)),
    StableHlo.binary main_v23 main_v73 main_v74 (cmpi .slt : (⟨S1048576x16, .i32⟩ : BufTy).Contents (Elt F) → (⟨S1048576x16, .i32⟩ : BufTy).Contents (Elt F) → (⟨S1048576x16, .i1⟩ : BufTy).Contents (Elt F)),
    StableHlo.nullary main_c_21 (constantI S_ 32 1024#32),
    StableHlo.unary main_c_21 main_v75 (broadcastInDim S1048576x16 ![] bcast_S_S1048576x16 : (⟨S_, .i32⟩ : BufTy).Contents (Elt F) → (⟨S1048576x16, .i32⟩ : BufTy).Contents (Elt F)),
    StableHlo.binary main_v23 main_v75 main_v76 (addi : (⟨S1048576x16, .i32⟩ : BufTy).Contents (Elt F) → (⟨S1048576x16, .i32⟩ : BufTy).Contents (Elt F) → (⟨S1048576x16, .i32⟩ : BufTy).Contents (Elt F)),
    StableHlo.ternary main_v74 main_v76 main_v23 main_v77 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    StableHlo.nullary main_c_22 (constantI S_ 32 0#32),
    StableHlo.unary main_c_22 main_v78 (broadcastInDim S1048576x16 ![] bcast_S_S1048576x16 : (⟨S_, .i32⟩ : BufTy).Contents (Elt F) → (⟨S1048576x16, .i32⟩ : BufTy).Contents (Elt F)),
    StableHlo.binary main_v13 main_v78 main_v79 (cmpi .slt : (⟨S1048576x16, .i32⟩ : BufTy).Contents (Elt F) → (⟨S1048576x16, .i32⟩ : BufTy).Contents (Elt F) → (⟨S1048576x16, .i1⟩ : BufTy).Contents (Elt F)),
    StableHlo.nullary main_c_23 (constantI S_ 32 1024#32),
    StableHlo.unary main_c_23 main_v80 (broadcastInDim S1048576x16 ![] bcast_S_S1048576x16 : (⟨S_, .i32⟩ : BufTy).Contents (Elt F) → (⟨S1048576x16, .i32⟩ : BufTy).Contents (Elt F)),
    StableHlo.binary main_v13 main_v80 main_v81 (addi : (⟨S1048576x16, .i32⟩ : BufTy).Contents (Elt F) → (⟨S1048576x16, .i32⟩ : BufTy).Contents (Elt F) → (⟨S1048576x16, .i32⟩ : BufTy).Contents (Elt F)),
    StableHlo.ternary main_v79 main_v81 main_v13 main_v82 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    StableHlo.unary main_v72 main_v83 (broadcastInDim S1048576x16 ![0, 1] bcast_S1x16_S1048576x16_0_1 : (⟨S1x16, .i32⟩ : BufTy).Contents (Elt F) → (⟨S1048576x16, .i32⟩ : BufTy).Contents (Elt F)),
    StableHlo.unary main_v83 main_v84 (broadcastInDim S1048576x16x1 ![0, 1] bcast_S1048576x16_S1048576x16x1_0_1 : (⟨S1048576x16, .i32⟩ : BufTy).Contents (Elt F) → (⟨S1048576x16x1, .i32⟩ : BufTy).Contents (Elt F)),
    StableHlo.unary main_v77 main_v85 (broadcastInDim S1048576x16x1 ![0, 1] bcast_S1048576x16_S1048576x16x1_0_1 : (⟨S1048576x16, .i32⟩ : BufTy).Contents (Elt F) → (⟨S1048576x16x1, .i32⟩ : BufTy).Contents (Elt F)),
    StableHlo.unary main_v82 main_v86 (broadcastInDim S1048576x16x1 ![0, 1] bcast_S1048576x16_S1048576x16x1_0_1 : (⟨S1048576x16, .i32⟩ : BufTy).Contents (Elt F) → (⟨S1048576x16x1, .i32⟩ : BufTy).Contents (Elt F)),
    StableHlo.nary ![main_v84, main_v85, main_v86] main_v87 (fun u => concatenate S1048576x16x3 2 [⟨S1048576x16x1, u 0⟩, ⟨S1048576x16x1, u 1⟩, ⟨S1048576x16x1, u 2⟩] concatenates_S1048576x16x1_S1048576x16x1_S1048576x16x1_S1048576x16x3_d2),
    StableHlo.binary main_arg0 main_v87 main_v88 ((fun x i => Host.gather gather_S16x1024x1024_S1048576x16x3_S1048576x16_n_012_n_n_012_2_111 x i) : (⟨S16x1024x1024, .f32⟩ : BufTy).Contents (Elt F) → (⟨S1048576x16x3, .i32⟩ : BufTy).Contents (Elt F) → (⟨S1048576x16, .f32⟩ : BufTy).Contents (Elt F)),
    StableHlo.nullary main_c_24 (constantI S_ 32 0#32),
    StableHlo.unary main_c_24 main_v89 (broadcastInDim S1x16 ![] bcast_S_S1x16 : (⟨S_, .i32⟩ : BufTy).Contents (Elt F) → (⟨S1x16, .i32⟩ : BufTy).Contents (Elt F)),
    StableHlo.binary main_v25 main_v89 main_v90 (cmpi .slt : (⟨S1x16, .i32⟩ : BufTy).Contents (Elt F) → (⟨S1x16, .i32⟩ : BufTy).Contents (Elt F) → (⟨S1x16, .i1⟩ : BufTy).Contents (Elt F)),
    StableHlo.nullary main_c_25 (constantI S_ 32 16#32),
    StableHlo.unary main_c_25 main_v91 (broadcastInDim S1x16 ![] bcast_S_S1x16 : (⟨S_, .i32⟩ : BufTy).Contents (Elt F) → (⟨S1x16, .i32⟩ : BufTy).Contents (Elt F)),
    StableHlo.binary main_v25 main_v91 main_v92 (addi : (⟨S1x16, .i32⟩ : BufTy).Contents (Elt F) → (⟨S1x16, .i32⟩ : BufTy).Contents (Elt F) → (⟨S1x16, .i32⟩ : BufTy).Contents (Elt F)),
    StableHlo.ternary main_v90 main_v92 main_v25 main_v93 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    StableHlo.nullary main_c_26 (constantI S_ 32 0#32),
    StableHlo.unary main_c_26 main_v94 (broadcastInDim S1048576x16 ![] bcast_S_S1048576x16 : (⟨S_, .i32⟩ : BufTy).Contents (Elt F) → (⟨S1048576x16, .i32⟩ : BufTy).Contents (Elt F)),
    StableHlo.binary main_v23 main_v94 main_v95 (cmpi .slt : (⟨S1048576x16, .i32⟩ : BufTy).Contents (Elt F) → (⟨S1048576x16, .i32⟩ : BufTy).Contents (Elt F) → (⟨S1048576x16, .i1⟩ : BufTy).Contents (Elt F)),
    StableHlo.nullary main_c_27 (constantI S_ 32 1024#32),
    StableHlo.unary main_c_27 main_v96 (broadcastInDim S1048576x16 ![] bcast_S_S1048576x16 : (⟨S_, .i32⟩ : BufTy).Contents (Elt F) → (⟨S1048576x16, .i32⟩ : BufTy).Contents (Elt F)),
    StableHlo.binary main_v23 main_v96 main_v97 (addi : (⟨S1048576x16, .i32⟩ : BufTy).Contents (Elt F) → (⟨S1048576x16, .i32⟩ : BufTy).Contents (Elt F) → (⟨S1048576x16, .i32⟩ : BufTy).Contents (Elt F)),
    StableHlo.ternary main_v95 main_v97 main_v23 main_v98 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    StableHlo.nullary main_c_28 (constantI S_ 32 0#32),
    StableHlo.unary main_c_28 main_v99 (broadcastInDim S1048576x16 ![] bcast_S_S1048576x16 : (⟨S_, .i32⟩ : BufTy).Contents (Elt F) → (⟨S1048576x16, .i32⟩ : BufTy).Contents (Elt F)),
    StableHlo.binary main_v17 main_v99 main_v100 (cmpi .slt : (⟨S1048576x16, .i32⟩ : BufTy).Contents (Elt F) → (⟨S1048576x16, .i32⟩ : BufTy).Contents (Elt F) → (⟨S1048576x16, .i1⟩ : BufTy).Contents (Elt F)),
    StableHlo.nullary main_c_29 (constantI S_ 32 1024#32),
    StableHlo.unary main_c_29 main_v101 (broadcastInDim S1048576x16 ![] bcast_S_S1048576x16 : (⟨S_, .i32⟩ : BufTy).Contents (Elt F) → (⟨S1048576x16, .i32⟩ : BufTy).Contents (Elt F)),
    StableHlo.binary main_v17 main_v101 main_v102 (addi : (⟨S1048576x16, .i32⟩ : BufTy).Contents (Elt F) → (⟨S1048576x16, .i32⟩ : BufTy).Contents (Elt F) → (⟨S1048576x16, .i32⟩ : BufTy).Contents (Elt F)),
    StableHlo.ternary main_v100 main_v102 main_v17 main_v103 (select : (⟨S1048576x16, .i1⟩ : BufTy).Contents (Elt F) → (⟨S1048576x16, .i32⟩ : BufTy).Contents (Elt F) → (⟨S1048576x16, .i32⟩ : BufTy).Contents (Elt F) → (⟨S1048576x16, .i32⟩ : BufTy).Contents (Elt F)),
    StableHlo.unary main_v93 main_v104 (broadcastInDim S1048576x16 ![0, 1] bcast_S1x16_S1048576x16_0_1 : (⟨S1x16, .i32⟩ : BufTy).Contents (Elt F) → (⟨S1048576x16, .i32⟩ : BufTy).Contents (Elt F)),
    StableHlo.unary main_v104 main_v105 (broadcastInDim S1048576x16x1 ![0, 1] bcast_S1048576x16_S1048576x16x1_0_1 : (⟨S1048576x16, .i32⟩ : BufTy).Contents (Elt F) → (⟨S1048576x16x1, .i32⟩ : BufTy).Contents (Elt F)),
    StableHlo.unary main_v98 main_v106 (broadcastInDim S1048576x16x1 ![0, 1] bcast_S1048576x16_S1048576x16x1_0_1 : (⟨S1048576x16, .i32⟩ : BufTy).Contents (Elt F) → (⟨S1048576x16x1, .i32⟩ : BufTy).Contents (Elt F)),
    StableHlo.unary main_v103 main_v107 (broadcastInDim S1048576x16x1 ![0, 1] bcast_S1048576x16_S1048576x16x1_0_1 : (⟨S1048576x16, .i32⟩ : BufTy).Contents (Elt F) → (⟨S1048576x16x1, .i32⟩ : BufTy).Contents (Elt F)),
    StableHlo.nary ![main_v105, main_v106, main_v107] main_v108 (fun u => concatenate S1048576x16x3 2 [⟨S1048576x16x1, u 0⟩, ⟨S1048576x16x1, u 1⟩, ⟨S1048576x16x1, u 2⟩] concatenates_S1048576x16x1_S1048576x16x1_S1048576x16x1_S1048576x16x3_d2),
    StableHlo.binary main_arg0 main_v108 main_v109 ((fun x i => Host.gather gather_S16x1024x1024_S1048576x16x3_S1048576x16_n_012_n_n_012_2_111 x i) : (⟨S16x1024x1024, .f32⟩ : BufTy).Contents (Elt F) → (⟨S1048576x16x3, .i32⟩ : BufTy).Contents (Elt F) → (⟨S1048576x16, .f32⟩ : BufTy).Contents (Elt F)),
    StableHlo.binary main_v67 main_v46 main_v110 (subf : (⟨S1048576x16, .f32⟩ : BufTy).Contents (Elt F) → (⟨S1048576x16, .f32⟩ : BufTy).Contents (Elt F) → (⟨S1048576x16, .f32⟩ : BufTy).Contents (Elt F)),
    StableHlo.binary main_v10 main_v110 main_v111 (mulf : (⟨S1048576x16, .f32⟩ : BufTy).Contents (Elt F) → (⟨S1048576x16, .f32⟩ : BufTy).Contents (Elt F) → (⟨S1048576x16, .f32⟩ : BufTy).Contents (Elt F)),
    StableHlo.binary main_v46 main_v111 main_v112 (addf : (⟨S1048576x16, .f32⟩ : BufTy).Contents (Elt F) → (⟨S1048576x16, .f32⟩ : BufTy).Contents (Elt F) → (⟨S1048576x16, .f32⟩ : BufTy).Contents (Elt F)),
    StableHlo.binary main_v109 main_v88 main_v113 (subf : (⟨S1048576x16, .f32⟩ : BufTy).Contents (Elt F) → (⟨S1048576x16, .f32⟩ : BufTy).Contents (Elt F) → (⟨S1048576x16, .f32⟩ : BufTy).Contents (Elt F)),
    StableHlo.binary main_v10 main_v113 main_v114 (mulf : (⟨S1048576x16, .f32⟩ : BufTy).Contents (Elt F) → (⟨S1048576x16, .f32⟩ : BufTy).Contents (Elt F) → (⟨S1048576x16, .f32⟩ : BufTy).Contents (Elt F)),
    StableHlo.binary main_v88 main_v114 main_v115 (addf : (⟨S1048576x16, .f32⟩ : BufTy).Contents (Elt F) → (⟨S1048576x16, .f32⟩ : BufTy).Contents (Elt F) → (⟨S1048576x16, .f32⟩ : BufTy).Contents (Elt F)),
    StableHlo.binary main_v115 main_v112 main_v116 (subf : (⟨S1048576x16, .f32⟩ : BufTy).Contents (Elt F) → (⟨S1048576x16, .f32⟩ : BufTy).Contents (Elt F) → (⟨S1048576x16, .f32⟩ : BufTy).Contents (Elt F)),
    StableHlo.binary main_v11 main_v116 main_v117 (mulf : (⟨S1048576x16, .f32⟩ : BufTy).Contents (Elt F) → (⟨S1048576x16, .f32⟩ : BufTy).Contents (Elt F) → (⟨S1048576x16, .f32⟩ : BufTy).Contents (Elt F)),
    StableHlo.binary main_v112 main_v117 main_v118 (addf : (⟨S1048576x16, .f32⟩ : BufTy).Contents (Elt F) → (⟨S1048576x16, .f32⟩ : BufTy).Contents (Elt F) → (⟨S1048576x16, .f32⟩ : BufTy).Contents (Elt F)) ]

end Cert.ReferenceIdeal.RefRun

end
-- ==== Proof.RefRun.lean ====
/-
  The reference's run. Its entry function is a straight line of host operations once the four calls of the
  remainder function (and the select nested in each) are unfolded at their call sites; so every weakly fair
  execution of it terminates, with each buffer at the fold of the operations' results over the launch contents.
-/
import proofs.«130787_j27539330302294_2_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the entry function is a chain of 231 statements
set_option maxRecDepth 16384 in
set_option maxHeartbeats 4000000 in
/-- The entry function is that straight line: the three windows, the remainder function's body and the select's body
    unfolded at their calls, both sides are one chain of host steps once sequencing is reassociated. -/
theorem main_eq (c : Dev nD) : main (F := F) c = seq ops := by
  simp only [main, main_part0, main_part1, main_part2, fn_remainder.body, fn_where.body, seq, bind_assoc, pure_bind]

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation touches TensorCore buffers only: one fact per operation, in the list's order. -/
theorem ops_sub : (ops : List (HloOp τ sig (Elt F))).Forall fun op => op.bufs ⊆ tcRefs τ sig :=
  ⟨unary_bufs_sub .., reshape_bufs_sub .., nullary_bufs_sub .., unary_bufs_sub .., binary_bufs_sub .., unary_bufs_sub ..,
    reshape_bufs_sub .., nullary_bufs_sub .., unary_bufs_sub .., binary_bufs_sub .., unary_bufs_sub .., unary_bufs_sub ..,
    binary_bufs_sub .., binary_bufs_sub .., unary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., unary_bufs_sub .., nullary_bufs_sub .., unary_bufs_sub .., binary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., unary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., unary_bufs_sub .., nullary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    unary_bufs_sub .., nary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., unary_bufs_sub .., unary_bufs_sub .., nary_bufs_sub .., binary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    unary_bufs_sub .., nary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., unary_bufs_sub .., unary_bufs_sub .., nary_bufs_sub .., binary_bufs_sub ..,
    binary_bufs_sub .., binary_bufs_sub .., binary_bufs_sub .., binary_bufs_sub .., binary_bufs_sub .., binary_bufs_sub ..,
    binary_bufs_sub .., binary_bufs_sub .., binary_bufs_sub ..⟩

/-- Termination and result of the reference: started from an arbitrary memory with all counters zero, every weakly
    fair execution of the entry function halts, and in the state it halts in each buffer holds what the 231 operations,
    applied in order to the contents the buffers had at the start, leave there. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefArgs.lean ====
/-
  The reference never writes its arguments: none of its operations has an argument buffer as its result, so the fold
  of the operations' results leaves both argument buffers at their launch contents.
-/
import proofs.«130787_j27539330302294_2_alg».proof.Proof.RefOps
import Idealize.ShloMosaic.Lib.StableHlo.Run
import Idealize.ShloMosaic.PureOps.Ideal

noncomputable section

namespace Cert.ReferenceIdeal.RefArgs

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- A buffer that is the result buffer of no operation keeps its contents through the fold. -/
theorem not_written {r : Ref sig .tc}
    (h : (ops : List (HloOp τ sig (Elt F))).Forall fun op => (Proc.devRef (τ := τ) .tc r) ∉ op.writes)
    (V : Valuation τ sig (Elt F)) : after ops V (Proc.devRef .tc r) = V (Proc.devRef .tc r) :=
  StableHlo.after_of_forall_not_mem (b := Proc.devRef .tc r) _ _ (List.forall_iff_forall_mem.mp h)

set_option maxRecDepth 16384 in
set_option maxHeartbeats 4000000 in
/-- The first argument differs from each of the 231 result buffers (one decided inequality per operation). -/
theorem arg0_eq_gen (V : Valuation τ sig (Elt F)) :
    after (ops (F := F)) V (main_arg0 : DevRef τ sig) = V (main_arg0 : DevRef τ sig) :=
  not_written (by
    simp only [ops, List.Forall, StableHlo.TRef.nullary, StableHlo.TRef.unary, StableHlo.TRef.binary, StableHlo.TRef.ternary,
      StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)) V

set_option maxRecDepth 16384 in
set_option maxHeartbeats 4000000 in
/-- The second argument differs from each of the 231 result buffers. -/
theorem arg1_eq_gen (V : Valuation τ sig (Elt F)) :
    after (ops (F := F)) V (main_arg1 : DevRef τ sig) = V (main_arg1 : DevRef τ sig) :=
  not_written (by
    simp only [ops, List.Forall, StableHlo.TRef.nullary, StableHlo.TRef.unary, StableHlo.TRef.binary, StableHlo.TRef.ternary,
      StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)) V

/-- At the extended reals: the first argument keeps its launch contents. -/
theorem arg0_eq (V : Valuation τ sig (Elt Ideal)) :
    after (ops (F := Ideal)) V (main_arg0 : DevRef τ sig) = V (main_arg0 : DevRef τ sig) := arg0_eq_gen V

/-- At the extended reals: the second argument keeps its launch contents. -/
theorem arg1_eq (V : Valuation τ sig (Elt Ideal)) :
    after (ops (F := Ideal)) V (main_arg1 : DevRef τ sig) = V (main_arg1 : DevRef τ sig) := arg1_eq_gen V

end Cert.ReferenceIdeal.RefArgs

end
-- ==== Proof.RefReadDefs.lean ====
/-
  The reference's values as vector functions of its two arguments, in the order the program computes them: the
  coordinates shifted by one half, their floors and fractional parts, the cells as 32-bit words, the wrap into the
  period 1024 (a truncated remainder with a sign correction), the three-component index arrays (feature, row, column),
  the four gathers of the image and the three blends. Each definition spells the operations exactly as the program's
  lines do: the value of a line is the definition named here applied to the values of the lines it reads.
-/
import proofs.«130787_j27539330302294_2_alg».proof.Proof.Gen.ReferenceIdeal
import Idealize.ShloMosaic.PureOps.Ideal

noncomputable section

namespace Cert.ReferenceIdeal.RefRead

open Cert.ReferenceIdeal Cert.ReferenceIdeal.Gen Idealize.ShloMosaic

/-- Arrays of extended reals, and of 32-bit words. -/
abbrev FV (s : Shape) : Type := FVec Ideal s .f32
abbrev IV (s : Shape) : Type := IVec s 32

/-- The splat of one half over the points. -/
def halves : FV S1048576x16 :=
  broadcastInDim S1048576x16 ![] bcast_S_S1048576x16 (constant S_ .f32 0x3F000000#32)

/-- The x coordinates less one half. -/
def xs (a1 : FV S1048576x16x2) : FV S1048576x16 :=
  subf (fun i => shapeCast S1048576x16
      (extractStridedSlice S1048576x16x1 ![0, 0, 0] a1 slices_S1048576x16x2_S1048576x16x1_0_0_0)
      shapeCasts_S1048576x16x1_S1048576x16 i) halves

/-- The y coordinates less one half. -/
def ys (a1 : FV S1048576x16x2) : FV S1048576x16 :=
  subf (fun i => shapeCast S1048576x16
      (extractStridedSlice S1048576x16x1 ![0, 0, 1] a1 slices_S1048576x16x2_S1048576x16x1_0_0_1)
      shapeCasts_S1048576x16x1_S1048576x16 i) halves

/-- The fractional part of a coordinate array. -/
def fracs (v : FV S1048576x16) : FV S1048576x16 := subf v (Host.floor v)

/-- The cells of a coordinate array, as words. -/
def cells (v : FV S1048576x16) : IV S1048576x16 := fptosi 32 (Host.floor v)

/-- A splat word over the points. -/
def splat (c : BitVec 32) : IV S1048576x16 :=
  broadcastInDim S1048576x16 ![] bcast_S_S1048576x16 (constantI S_ 32 c)

/-- The divisor of the remainder, guarded against zero (a rank-zero word). -/
def divisor : IV S_ :=
  select (cmpi .eq (id (constantI S_ 32 1024#32)) (constantI S_ 32 0#32)) (constantI S_ 32 1#32) (id (constantI S_ 32 1024#32))

/-- The wrap into the period: the truncated remainder, corrected where its sign differs from the divisor's. -/
def wrap (v : IV S1048576x16) : IV S1048576x16 :=
  select
    (andi
      (cmpi .ne (cmpi .slt (Host.remsi v (broadcastInDim S1048576x16 ![] bcast_S_S1048576x16 divisor)) (splat 0#32))
        (broadcastInDim S1048576x16 ![] bcast_S_S1048576x16 (cmpi .slt divisor (constantI S_ 32 0#32))))
      (cmpi .ne (Host.remsi v (broadcastInDim S1048576x16 ![] bcast_S_S1048576x16 divisor)) (splat 0#32)))
    (addi (Host.remsi v (broadcastInDim S1048576x16 ![] bcast_S_S1048576x16 divisor))
      (broadcastInDim S1048576x16 ![] bcast_S_S1048576x16 divisor))
    (Host.remsi v (broadcastInDim S1048576x16 ![] bcast_S_S1048576x16 divisor))

/-- The successor cells. -/
def succs (v : IV S1048576x16) : IV S1048576x16 := addi v (splat 1#32)

/-- A negative index counted from the end of an axis of extent 1024. -/
def norm (w : IV S1048576x16) : IV S1048576x16 :=
  select (cmpi .slt w (splat 0#32)) (addi w (splat 1024#32)) w

/-- The feature numbers as a row, each counted from the end of the 16 if negative. -/
def featRow : IV S1x16 :=
  select
    (cmpi .slt (broadcastInDim S1x16 ![1] bcast_S16_S1x16_1 (iotaInDim S16 32 0))
      (broadcastInDim S1x16 ![] bcast_S_S1x16 (constantI S_ 32 0#32)))
    (addi (broadcastInDim S1x16 ![1] bcast_S16_S1x16_1 (iotaInDim S16 32 0))
      (broadcastInDim S1x16 ![] bcast_S_S1x16 (constantI S_ 32 16#32)))
    (broadcastInDim S1x16 ![1] bcast_S16_S1x16_1 (iotaInDim S16 32 0))

/-- An index component as a column of the index array. -/
def col (w : IV S1048576x16) : IV S1048576x16x1 :=
  broadcastInDim S1048576x16x1 ![0, 1] bcast_S1048576x16_S1048576x16x1_0_1 w

/-- The index array of one corner: (feature, row, column) for every (point, feature). -/
def index3 (iy ix : IV S1048576x16) : IV S1048576x16x3 :=
  concatenate S1048576x16x3 2
    [⟨S1048576x16x1, col (broadcastInDim S1048576x16 ![0, 1] bcast_S1x16_S1048576x16_0_1 featRow)⟩,
     ⟨S1048576x16x1, col (norm iy)⟩, ⟨S1048576x16x1, col (norm ix)⟩]
    concatenates_S1048576x16x1_S1048576x16x1_S1048576x16x1_S1048576x16x3_d2

/-- One corner: the image gathered at the index array. -/
def corner (a0 : FV S16x1024x1024) (iy ix : IV S1048576x16) : FV S1048576x16 :=
  Host.gather gather_S16x1024x1024_S1048576x16x3_S1048576x16_n_012_n_n_012_2_111 a0 (index3 iy ix)

/-- A blend of two arrays by a weight array: `p + t·(q - p)`. -/
def lerp (t p q : FV S1048576x16) : FV S1048576x16 := addf p (mulf t (subf q p))

/-- The reference's result as a function of the image and the coordinates. -/
def result (a0 : FV S16x1024x1024) (a1 : FV S1048576x16x2) : FV S1048576x16 :=
  lerp (fracs (ys a1))
    (lerp (fracs (xs a1)) (corner a0 (wrap (cells (ys a1))) (wrap (cells (xs a1))))
      (corner a0 (wrap (cells (ys a1))) (wrap (succs (cells (xs a1))))))
    (lerp (fracs (xs a1)) (corner a0 (wrap (succs (cells (ys a1)))) (wrap (cells (xs a1))))
      (corner a0 (wrap (succs (cells (ys a1)))) (wrap (succs (cells (xs a1))))))

end Cert.ReferenceIdeal.RefRead

end
-- ==== Proof.RefLayout.lean ====
/-
  The reference's layout operations read at one index.

  Every operation here only moves entries: a slice reads its operand at the index shifted by the offsets, a reshape keeps
  each entry's row-major position, a broadcast reads the operand at the coordinates its axis map names (and at 0 on a
  unit axis), a concatenation of unit-width pieces along the last axis reads piece `k` at last coordinate 0, and an iota
  along an axis is that axis's coordinate as a word.
-/
import proofs.«130787_j27539330302294_2_alg».proof.Proof.Gen.ReferenceIdeal
import Idealize.ShloMosaic.Lib.ValueIdx
import Idealize.ShloMosaic.Lib.Pipeline.Value
import Idealize.ShloMosaic.Lib.ValueLayout

namespace Cert.ReferenceIdeal.RefLayout

open Idealize.ShloMosaic Idealize.ShloMosaic.ValueIdx
open Cert.ReferenceIdeal Cert.ReferenceIdeal.Gen

variable {α : Type}

/-! ## Three unit-width pieces laid side by side along the last axis -/

/-- The three pieces, as the list the concatenation takes. -/
abbrev pieces3 (u0 u1 u2 : S1048576x16x1.Idx → α) : List ((s : Shape) × (s.Idx → α)) :=
  [⟨S1048576x16x1, u0⟩, ⟨S1048576x16x1, u1⟩, ⟨S1048576x16x1, u2⟩]

/-- Last coordinate 0 falls in the first piece … -/
theorem concat3_apply0 (u0 u1 u2 : S1048576x16x1.Idx → α)
    (h : Shape.Concatenates ((pieces3 u0 u1 u2).map (·.1)) S1048576x16x3 2) (P : Fin 1048576) (f : Fin 16) :
    concatenate S1048576x16x3 2 [⟨S1048576x16x1, u0⟩, ⟨S1048576x16x1, u1⟩, ⟨S1048576x16x1, u2⟩] h (ix3 P f (0 : Fin 3))
      = u0 (ix3 P f (0 : Fin 1)) := by
  refine concatenate_apply_piece (2 : Fin 3) (pieces3 u0 u1 u2) h (ix3 P f (0 : Fin 3)) 0 (by show (0 : Nat) < 3; omega) S1048576x16x1 u0 rfl rfl 0 rfl
    (ix3 P f (0 : Fin 1)) (fun b hb => ?_) rfl
  match b with
  | ⟨0, _⟩ => rfl
  | ⟨1, _⟩ => rfl
  | ⟨2, _⟩ => exact absurd rfl hb

/-- … 1 in the second … -/
theorem concat3_apply1 (u0 u1 u2 : S1048576x16x1.Idx → α)
    (h : Shape.Concatenates ((pieces3 u0 u1 u2).map (·.1)) S1048576x16x3 2) (P : Fin 1048576) (f : Fin 16) :
    concatenate S1048576x16x3 2 [⟨S1048576x16x1, u0⟩, ⟨S1048576x16x1, u1⟩, ⟨S1048576x16x1, u2⟩] h (ix3 P f (1 : Fin 3))
      = u1 (ix3 P f (0 : Fin 1)) := by
  refine concatenate_apply_piece (2 : Fin 3) (pieces3 u0 u1 u2) h (ix3 P f (1 : Fin 3)) 1 (by show (1 : Nat) < 3; omega) S1048576x16x1 u1 rfl rfl 1 rfl
    (ix3 P f (0 : Fin 1)) (fun b hb => ?_) rfl
  match b with
  | ⟨0, _⟩ => rfl
  | ⟨1, _⟩ => rfl
  | ⟨2, _⟩ => exact absurd rfl hb

/-- … and 2 in the third. -/
theorem concat3_apply2 (u0 u1 u2 : S1048576x16x1.Idx → α)
    (h : Shape.Concatenates ((pieces3 u0 u1 u2).map (·.1)) S1048576x16x3 2) (P : Fin 1048576) (f : Fin 16) :
    concatenate S1048576x16x3 2 [⟨S1048576x16x1, u0⟩, ⟨S1048576x16x1, u1⟩, ⟨S1048576x16x1, u2⟩] h (ix3 P f (2 : Fin 3))
      = u2 (ix3 P f (0 : Fin 1)) := by
  refine concatenate_apply_piece (2 : Fin 3) (pieces3 u0 u1 u2) h (ix3 P f (2 : Fin 3)) 2 (by show (2 : Nat) < 3; omega) S1048576x16x1 u2 rfl rfl 2 rfl
    (ix3 P f (0 : Fin 1)) (fun b hb => ?_) rfl
  match b with
  | ⟨0, _⟩ => rfl
  | ⟨1, _⟩ => rfl
  | ⟨2, _⟩ => exact absurd rfl hb

/-! ## Broadcasts along named axes -/

/-- The feature vector laid out as a one-row array: entry `(0, f)` is the vector's `f`. -/
theorem bcast_16_1x16_apply (h : S16.BroadcastsInDim S1x16 (![1] : Fin 1 → Fin S1x16.rank)) (x : S16.Idx → α) (f : Fin 16) :
    broadcastInDim S1x16 ![1] h x (ix2 (0 : Fin 1) f) = x (ix1 f) :=
  broadcastInDim_apply _ h x (ix2 (0 : Fin 1) f) (ix1 f) (fun a => by
    match a with
    | ⟨0, _⟩ => rfl)

/-- The one row repeated over every point: entry `(P, f)` is the row's `(0, f)`. -/
theorem bcast_1x16_Nx16_apply (h : S1x16.BroadcastsInDim S1048576x16 (![0, 1] : Fin 2 → Fin S1048576x16.rank)) (x : S1x16.Idx → α)
    (P : Fin 1048576) (f : Fin 16) :
    broadcastInDim S1048576x16 ![0, 1] h x (ix2 P f) = x (ix2 (0 : Fin 1) f) :=
  broadcastInDim_apply _ h x (ix2 P f) (ix2 (0 : Fin 1) f) (fun a => by
    match a with
    | ⟨0, _⟩ => rfl
    | ⟨1, _⟩ => rfl)

/-- A trailing unit axis added: entry `(P, f, 0)` is the operand's `(P, f)`. -/
theorem bcast_Nx16_Nx16x1_apply (h : S1048576x16.BroadcastsInDim S1048576x16x1 (![0, 1] : Fin 2 → Fin S1048576x16x1.rank))
    (x : S1048576x16.Idx → α) (P : Fin 1048576) (f : Fin 16) :
    broadcastInDim S1048576x16x1 ![0, 1] h x (ix3 P f (0 : Fin 1)) = x (ix2 P f) :=
  broadcastInDim_apply _ h x (ix3 P f (0 : Fin 1)) (ix2 P f) (fun a => by
    match a with
    | ⟨0, _⟩ => rfl
    | ⟨1, _⟩ => rfl)

/-! ## The coordinate slices and the reshape that drops their unit axis -/

/-- The slice at last offset 0: entry `(P, f, 0)` is the operand's `(P, f, 0)` … -/
theorem slice0_apply (h : S1048576x16x2.Slices ![0, 0, 0] S1048576x16x1) (x : S1048576x16x2.Idx → α) (P : Fin 1048576) (f : Fin 16) :
    extractStridedSlice S1048576x16x1 ![0, 0, 0] x h (ix3 P f (0 : Fin 1)) = x (ix3 P f (0 : Fin 2)) :=
  extractStridedSlice_apply _ x h (ix3 P f (0 : Fin 1)) (ix3 P f (0 : Fin 2)) (fun a => by
    match a with
    | ⟨0, _⟩ => show P.val = 0 + P.val; omega
    | ⟨1, _⟩ => show f.val = 0 + f.val; omega
    | ⟨2, _⟩ => rfl)

/-- … and the slice at last offset 1: entry `(P, f, 0)` is the operand's `(P, f, 1)`. -/
theorem slice1_apply (h : S1048576x16x2.Slices ![0, 0, 1] S1048576x16x1) (x : S1048576x16x2.Idx → α) (P : Fin 1048576) (f : Fin 16) :
    extractStridedSlice S1048576x16x1 ![0, 0, 1] x h (ix3 P f (0 : Fin 1)) = x (ix3 P f (1 : Fin 2)) :=
  extractStridedSlice_apply _ x h (ix3 P f (0 : Fin 1)) (ix3 P f (1 : Fin 2)) (fun a => by
    match a with
    | ⟨0, _⟩ => show P.val = 0 + P.val; omega
    | ⟨1, _⟩ => show f.val = 0 + f.val; omega
    | ⟨2, _⟩ => rfl)

/-- The trailing unit axis dropped: entry `(P, f)` keeps the row-major position of the operand's `(P, f, 0)`. -/
theorem reshape_apply (h : S1048576x16x1.ShapeCasts S1048576x16) (x : S1048576x16x1.Idx → α) (P : Fin 1048576) (f : Fin 16) :
    shapeCast S1048576x16 x h (ix2 P f) = x (ix3 P f (0 : Fin 1)) :=
  shapeCast_apply x h (ix2 P f) (ix3 P f (0 : Fin 1)) (by
    rw [Shape.rowMajor_val_three, Shape.rowMajor_val_two]
    show (P.val * 16 + f.val) * 1 + 0 = P.val * 16 + f.val
    omega)

/-- The x-coordinate plane: slice at 0, then the unit axis dropped. -/
theorem coord0_apply (hs : S1048576x16x2.Slices ![0, 0, 0] S1048576x16x1) (hc : S1048576x16x1.ShapeCasts S1048576x16)
    (x : S1048576x16x2.Idx → α) (P : Fin 1048576) (f : Fin 16) :
    shapeCast S1048576x16 (extractStridedSlice S1048576x16x1 ![0, 0, 0] x hs) hc (ix2 P f) = x (ix3 P f (0 : Fin 2)) := by
  rw [reshape_apply, slice0_apply]

/-- The y-coordinate plane: slice at 1, then the unit axis dropped. -/
theorem coord1_apply (hs : S1048576x16x2.Slices ![0, 0, 1] S1048576x16x1) (hc : S1048576x16x1.ShapeCasts S1048576x16)
    (x : S1048576x16x2.Idx → α) (P : Fin 1048576) (f : Fin 16) :
    shapeCast S1048576x16 (extractStridedSlice S1048576x16x1 ![0, 0, 1] x hs) hc (ix2 P f) = x (ix3 P f (1 : Fin 2)) := by
  rw [reshape_apply, slice1_apply]

/-! ## A scalar broadcast to any shape -/

/-- A rank-0 operand broadcast to any shape reads its one entry everywhere. -/
theorem splat_apply {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- An integer constant broadcast to any shape is that word everywhere. -/
theorem splat_constantI_apply {t : Shape} {w : Nat} (h : S_.BroadcastsInDim t (![] : Fin 0 → Fin t.rank)) (c : BitVec w) (j : t.Idx) :
    broadcastInDim t ![] h (constantI S_ w c) j = c := by
  rw [splat_apply]; rfl

/-- A float constant broadcast to any shape is, at extended reals, the number its word encodes everywhere. -/
theorem splat_constant_apply {t : Shape} {φ : FTy} (h : S_.BroadcastsInDim t (![] : Fin 0 → Fin t.rank)) (b : BitVec φ.bits) (j : t.Idx) :
    broadcastInDim t ![] h (constant (F := Ideal) S_ φ b) j = Ideal.ofBits φ b := by
  rw [splat_apply]; rfl

/-! ## The feature numbers -/

/-- The iota along the one axis of the feature vector: entry `f` is the word of `f`. -/
theorem iota16_apply (f : Fin 16) : iotaInDim S16 32 0 (ix1 f) = BitVec.ofNat 32 f.val := rfl

end Cert.ReferenceIdeal.RefLayout
-- ==== Proof.RefReadAt.lean ====
/-
  The reference's arrays read at one (point, feature).

  Each array of the reference is a composition of elementwise and layout operations, so its entry at a point and a
  feature is the same composition of scalar operations on the entries of its operands there: the wrap is the corrected
  remainder of the cell word, hence its low ten bits; the index array's three components are the feature number, the row
  and the column, each left alone by the negative-index correction and by the gather's clamp because they already lie in
  range; so a corner is the image at the feature's plane and the two wrapped pixels, and the result is the four-corner
  blend of the specification.
-/
import proofs.«130787_j27539330302294_2_alg».proof.Proof.RefReadDefs
import proofs.«130787_j27539330302294_2_alg».proof.Proof.Words
import proofs.«130787_j27539330302294_2_alg».proof.Proof.RefLayout
import proofs.«130787_j27539330302294_2_alg».proof.Proof.Spec

noncomputable section

namespace Cert.ReferenceIdeal.RefRead

open Cert.ReferenceIdeal Cert.ReferenceIdeal.Gen Idealize.ShloMosaic Idealize.ShloMosaic.ValueIdx
open Cert.Bilerp

/-! ## Splats and the divisor -/

/-- A splat word reads that word everywhere. -/
theorem splat_at (c : BitVec 32) (j : S1048576x16.Idx) : splat c j = c :=
  RefLayout.splat_constantI_apply bcast_S_S1048576x16 c j

/-- The splat of one half reads one half everywhere. -/
theorem halves_at (j : S1048576x16.Idx) : halves j = half :=
  RefLayout.splat_constant_apply bcast_S_S1048576x16 _ j

/-- The guarded divisor is 1024: the guard against zero is not taken. -/
theorem divisor_at (j : S_.Idx) : divisor j = 1024#32 := Words.guard_1024

/-- … so its splat is 1024 everywhere … -/
theorem divisor_splat_at (j : S1048576x16.Idx) :
    broadcastInDim S1048576x16 ![] bcast_S_S1048576x16 divisor j = 1024#32 :=
  (RefLayout.splat_apply _ _ _).trans (divisor_at _)

/-- … and the splat of its sign bit is the sign bit of 1024. -/
theorem divisor_sign_splat_at (j : S1048576x16.Idx) :
    broadcastInDim S1048576x16 ![] bcast_S_S1048576x16 (cmpi .slt divisor (constantI S_ 32 0#32)) j
      = IntOp.cmpi .slt 1024#32 0#32 :=
  (RefLayout.splat_apply _ _ _).trans (by
    show IntOp.cmpi .slt (divisor ix0) 0#32 = _
    rw [divisor_at])

/-! ## The word arrays -/

/-- The wrap at an entry is the corrected remainder of that entry, hence its low ten bits. -/
theorem wrap_apply (v : IV S1048576x16) (j : S1048576x16.Idx) : wrap v j = v j &&& 1023#32 := by
  rw [← Words.remFix_eq]
  show Scalar.select
      (IntOp.andi
        (IntOp.cmpi .ne
          (IntOp.cmpi .slt (IntOp.remsi .host (v j) (broadcastInDim S1048576x16 ![] bcast_S_S1048576x16 divisor j)) (splat 0#32 j))
          (broadcastInDim S1048576x16 ![] bcast_S_S1048576x16 (cmpi .slt divisor (constantI S_ 32 0#32)) j))
        (IntOp.cmpi .ne (IntOp.remsi .host (v j) (broadcastInDim S1048576x16 ![] bcast_S_S1048576x16 divisor j)) (splat 0#32 j)))
      (IntOp.addi (IntOp.remsi .host (v j) (broadcastInDim S1048576x16 ![] bcast_S_S1048576x16 divisor j))
        (broadcastInDim S1048576x16 ![] bcast_S_S1048576x16 divisor j))
      (IntOp.remsi .host (v j) (broadcastInDim S1048576x16 ![] bcast_S_S1048576x16 divisor j)) = _
  rw [divisor_splat_at, divisor_sign_splat_at, splat_at]
  rfl

/-- The negative-index correction at an entry. -/
theorem norm_apply (w : IV S1048576x16) (j : S1048576x16.Idx) : norm w j = Words.negFix 1024#32 (w j) := by
  show Scalar.select (IntOp.cmpi .slt (w j) (splat 0#32 j)) (IntOp.addi (w j) (splat 1024#32 j)) (w j) = _
  rw [splat_at, splat_at]
  rfl

/-- The successor cell at an entry. -/
theorem succs_apply (v : IV S1048576x16) (j : S1048576x16.Idx) : succs v j = v j + 1#32 := by
  show IntOp.addi (v j) (splat 1#32 j) = _
  rw [splat_at]
  rfl

/-- The cell at an entry is the specification's cell of the coordinate there. -/
theorem cells_apply (v : FV S1048576x16) (j : S1048576x16.Idx) : cells v j = cell (v j) := rfl

/-- The weight at an entry is the specification's weight of the coordinate there. -/
theorem fracs_apply (v : FV S1048576x16) (j : S1048576x16.Idx) : fracs v j = frac (v j) := rfl

/-! ## The shifted coordinates -/

theorem xs_apply (a1 : FV S1048576x16x2) (P : Fin 1048576) (f : Fin 16) :
    xs a1 (ix2 P f) = a1 (ix3 P f (0 : Fin 2)) - half := by
  show shapeCast S1048576x16 (extractStridedSlice S1048576x16x1 ![0, 0, 0] a1 slices_S1048576x16x2_S1048576x16x1_0_0_0)
      shapeCasts_S1048576x16x1_S1048576x16 (ix2 P f) - halves (ix2 P f) = _
  rw [RefLayout.coord0_apply, halves_at]

theorem ys_apply (a1 : FV S1048576x16x2) (P : Fin 1048576) (f : Fin 16) :
    ys a1 (ix2 P f) = a1 (ix3 P f (1 : Fin 2)) - half := by
  show shapeCast S1048576x16 (extractStridedSlice S1048576x16x1 ![0, 0, 1] a1 slices_S1048576x16x2_S1048576x16x1_0_0_1)
      shapeCasts_S1048576x16x1_S1048576x16 (ix2 P f) - halves (ix2 P f) = _
  rw [RefLayout.coord1_apply, halves_at]

/-! ## The index array -/

/-- The feature row: entry `(0, f)` is the word of `f` (never negative, so not counted from the end). -/
theorem featRow_apply (f : Fin 16) : featRow (ix2 (0 : Fin 1) f) = BitVec.ofNat 32 f.val := by
  show Scalar.select
      (IntOp.cmpi .slt (broadcastInDim S1x16 ![1] bcast_S16_S1x16_1 (iotaInDim S16 32 0) (ix2 (0 : Fin 1) f))
        (broadcastInDim S1x16 ![] bcast_S_S1x16 (constantI S_ 32 0#32) (ix2 (0 : Fin 1) f)))
      (IntOp.addi (broadcastInDim S1x16 ![1] bcast_S16_S1x16_1 (iotaInDim S16 32 0) (ix2 (0 : Fin 1) f))
        (broadcastInDim S1x16 ![] bcast_S_S1x16 (constantI S_ 32 16#32) (ix2 (0 : Fin 1) f)))
      (broadcastInDim S1x16 ![1] bcast_S16_S1x16_1 (iotaInDim S16 32 0) (ix2 (0 : Fin 1) f)) = _
  rw [RefLayout.bcast_16_1x16_apply, RefLayout.iota16_apply, RefLayout.splat_constantI_apply, RefLayout.splat_constantI_apply]
  exact Words.negFix_feat f

/-- A column of the index array reads its operand at the point and feature. -/
theorem col_apply (w : IV S1048576x16) (P : Fin 1048576) (f : Fin 16) : col w (ix3 P f (0 : Fin 1)) = w (ix2 P f) :=
  RefLayout.bcast_Nx16_Nx16x1_apply _ w P f

/-- Component 0 of the index array is the feature number … -/
theorem index3_apply0 (iy ix : IV S1048576x16) (P : Fin 1048576) (f : Fin 16) :
    index3 iy ix (ix3 P f (0 : Fin 3)) = BitVec.ofNat 32 f.val := by
  unfold index3
  rw [RefLayout.concat3_apply0, col_apply, RefLayout.bcast_1x16_Nx16_apply, featRow_apply]

/-- … component 1 the corrected row … -/
theorem index3_apply1 (iy ix : IV S1048576x16) (P : Fin 1048576) (f : Fin 16) :
    index3 iy ix (ix3 P f (1 : Fin 3)) = Words.negFix 1024#32 (iy (ix2 P f)) := by
  unfold index3
  rw [RefLayout.concat3_apply1, col_apply, norm_apply]

/-- … component 2 the corrected column. -/
theorem index3_apply2 (iy ix : IV S1048576x16) (P : Fin 1048576) (f : Fin 16) :
    index3 iy ix (ix3 P f (2 : Fin 3)) = Words.negFix 1024#32 (ix (ix2 P f)) := by
  unfold index3
  rw [RefLayout.concat3_apply2, col_apply, norm_apply]

/-! ## A corner, and the result -/

/-- A CORNER READ AT A POINT AND FEATURE: the image's plane `f` at the two wrapped pixels. -/
theorem corner_apply (a0 : FV S16x1024x1024) (iy ix : IV S1048576x16) (P : Fin 1048576) (f : Fin 16) :
    corner a0 (wrap iy) (wrap ix) (ix2 P f) = a0 (ix3 f (pix (iy (ix2 P f))) (pix (ix (ix2 P f)))) := by
  unfold corner
  rw [Words.gather3_apply]
  refine congrArg a0 (funext fun a => Fin.ext ?_)
  match a with
  | ⟨0, _⟩ =>
    show min (index3 (wrap iy) (wrap ix) (ix3 P f (0 : Fin 3))).toInt.toNat 15 = f.val
    rw [index3_apply0, Words.clamp_feat]
  | ⟨1, _⟩ =>
    show min (index3 (wrap iy) (wrap ix) (ix3 P f (1 : Fin 3))).toInt.toNat 1023 = (iy (ix2 P f) &&& 1023#32).toNat
    rw [index3_apply1, wrap_apply, Words.negFix_and, Words.clamp_and]
  | ⟨2, _⟩ =>
    show min (index3 (wrap iy) (wrap ix) (ix3 P f (2 : Fin 3))).toInt.toNat 1023 = (ix (ix2 P f) &&& 1023#32).toNat
    rw [index3_apply2, wrap_apply, Words.negFix_and, Words.clamp_and]

/-- THE RESULT READ AT A POINT AND FEATURE is the four-corner blend of the specification: each blend of two arrays by a
    weight array is, at an entry, `p + t·(q - p)` of the entries; the four corners are the image's plane `f` at the
    wrapped cell and successor along each axis; the weights are the fractional parts of the shifted coordinates. -/
theorem result_apply (a0 : FV S16x1024x1024) (a1 : FV S1048576x16x2) (P : Fin 1048576) (f : Fin 16) :
    result a0 a1 (ix2 P f)
      = rval (fun h w => a0 (ix3 f h w)) (a1 (ix3 P f (0 : Fin 2))) (a1 (ix3 P f (1 : Fin 2))) := by
  unfold result lerp
  simp only [addf_apply, mulf_apply, subf_apply, corner_apply, succs_apply, fracs_apply, cells_apply, xs_apply, ys_apply]
  rfl

/-- THE REFERENCE'S RESULT ARRAY IS THE FOUR-CORNER ARRANGEMENT at every (point, feature): every index is a point and a
    feature, and there the two agree by the reading above. -/
theorem result_eq_Rout (a0 : FV S16x1024x1024) (a1 : FV S1048576x16x2) : result a0 a1 = Rout a0 a1 := by
  funext i
  obtain ⟨P, f, rfl⟩ : ∃ (P : Fin 1048576) (f : Fin 16), i = ix2 P f := ⟨i 0, i 1, eq_ix2 i⟩
  exact result_apply a0 a1 P f

end Cert.ReferenceIdeal.RefRead

end
-- ==== Proof.RefRead.lean ====
/-
  Reading the reference's result. The run leaves every buffer at the fold of the program's operations over the launch
  contents. The contents of the result buffer after the 231 operations are the composition `result` of the two
  argument arrays: each operation's buffer holds its function of its operands' buffers, and every other buffer what it
  held before. Read at any (point, feature), `result` is the four-corner arrangement `Cert.Bilerp.Rout`. No
  operation writes an argument, so both still hold their launch contents.
-/
import proofs.«130787_j27539330302294_2_alg».proof.Proof.RefOps
import proofs.«130787_j27539330302294_2_alg».proof.Proof.RefArgs
import proofs.«130787_j27539330302294_2_alg».proof.Proof.RefReadDefs
import proofs.«130787_j27539330302294_2_alg».proof.Proof.RefReadAt
import proofs.«130787_j27539330302294_2_alg».proof.Proof.Spec

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

section Nary3
variable {sig : RefSig} {τ : Topo} {Val : EltTy → Type} {x a b y : Ref sig .tc}

/-- A function of a literal triple of operands, applied to the three contents one by one. -/
def nary3Apply (f : ((k : Fin 3) → ((![x, a, b] : Fin 3 → Ref sig .tc) k).ty.Contents Val) → y.ty.Contents Val)
    (u0 : x.ty.Contents Val) (u1 : a.ty.Contents Val) (u2 : b.ty.Contents Val) : y.ty.Contents Val :=
  f (Fin.cons u0 (Fin.cons u1 (Fin.cons u2 (fun i => i.elim0))))

/-- An operation of three operands given as a literal triple: its result buffer holds its function of the three
    operands' contents, each read at its own buffer. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = nary3Apply f (F (Proc.devRef .tc x)) (F (Proc.devRef .tc a)) (F (Proc.devRef .tc b)) := by
  rw [nary_result]; unfold nary3Apply; congr 1; funext k; fin_cases k <;> rfl

end Nary3

set_option maxRecDepth 16384 in
set_option maxHeartbeats 8000000 in
/-- THE FOLD AT THE RESULT BUFFER: after the 231 operations the result buffer holds the composition `result` of the
    two arguments' contents. Each operation's buffer holds its function of its operands' buffers; a value used several
    times (a wrapped cell array, a corner) is one buffer, read by each of its uses; the transports between a buffer's
    type and a value's type at the remainder function's calls' buffers are identities. -/
theorem fold_eq (V : Valuation τ sig (Elt Ideal)) :
    after (ops (F := Ideal)) V (main_v118 : DevRef τ sig)
      = result (V (main_arg0 : DevRef τ sig)) (V (main_arg1 : DevRef τ sig)) := by
  simp (disch := decide) only [after_cons, after_nil,
      nullary_result', unary_result', binary_result', ternary_result', reshape_result', nary3_result',
      nullary_result_ne', unary_result_ne', binary_result_ne', ternary_result_ne', reshape_result_ne',
      nary_result_ne']
  rfl

/-- THE REFERENCE'S RESULT: the four-corner arrangement of the two arguments' contents. -/
theorem result_eq (V : Valuation τ sig (Elt Ideal)) :
    after (ops (F := Ideal)) V (main_v118 : DevRef τ sig)
      = Cert.Bilerp.Rout (V (main_arg0 : DevRef τ sig)) (V (main_arg1 : DevRef τ sig)) :=
  (fold_eq V).trans (result_eq_Rout _ _)

/-- No operation writes the image. -/
theorem arg0_eq (V : Valuation τ sig (Elt Ideal)) :
    after (ops (F := Ideal)) V (main_arg0 : DevRef τ sig) = V (main_arg0 : DevRef τ sig) := RefArgs.arg0_eq V

/-- No operation writes the coordinates. -/
theorem arg1_eq (V : Valuation τ sig (Elt Ideal)) :
    after (ops (F := Ideal)) V (main_arg1 : DevRef τ sig) = V (main_arg1 : DevRef τ sig) := RefArgs.arg1_eq V

end Cert.ReferenceIdeal.RefRead

end
-- ==== Proof.lean ====
/-
  The certificate of a bilinear sampler: for each of 1,048,576 points and 16 features, the periodic 1024 × 1024 plane
  `image[f]` is sampled at the point's coordinates `(x, y) = coords[p, f, ·]`, each shifted by one half; the cell is
  the floor, the weight the fractional part, and cell and successor wrap modulo 1024.

  The kernel computes a sample in the ONE-HOT arrangement: along y it lays the weights `1 - ty`, `ty` out over all 1024
  row positions and contracts that vector against the plane (a matrix product), then multiplies by the same kind of
  vector along x and sums over the columns. The reference computes it in the FOUR-CORNER arrangement: it gathers the
  four pixels and forms `i0 + ty·(i1 - i0)` with `i0 = i00 + tx·(i01 - i00)`, `i1 = i10 + tx·(i11 - i10)`.

  * Spec: both arrangements as functions `kval`, `rval` of a plane and a coordinate pair, and the whole arrays
    `Kout`, `Rout`.
  * KBody, KRun: the kernel's output block at an element is `kval`; the blocks of the 4096 grid points tile the output
    array, which is therefore `Kout` of the arguments (the image cast to bf16 before the call is the image itself at
    the ideal instance).
  * RefOps, RefRun, RefArgs, RefLayout, RefRead: the reference as a straight line of host operations, its run (no
    operation writes an argument), its layout operations read at an index, and its result read at an element: `Rout` of the arguments. The reference wraps by a signed remainder with a sign fix-up where the kernel
    masks the low ten bits; the two agree on every 32-bit word (Words), and the wrapped words are in range for the
    gathers, so neither the negative-index normalisation nor the gather's clamp changes them.
  * Bridge: a sum against a vector supported on two distinct positions has two terms (zero times anything is zero on
    the extended reals), and what remains is an identity of real numbers. It cancels `a - a`, so it needs the pixels and
    the coordinates finite: this is where the precondition is used (Finite).

  The three frames: the two kernel programs' are the launch and body frames; the reference's is its run with the result
  dropped. The idealization rewrote nothing, so `preserves` is trivial.
-/
import proofs.«130787_j27539330302294_2_alg».proof.Defs
import proofs.«130787_j27539330302294_2_alg».proof.Proof.Gen.Kernel
import proofs.«130787_j27539330302294_2_alg».proof.Proof.Gen.Kernel.Frame
import proofs.«130787_j27539330302294_2_alg».proof.Proof.Gen.KernelIdeal
import proofs.«130787_j27539330302294_2_alg».proof.Proof.Gen.KernelIdeal.Frame
import proofs.«130787_j27539330302294_2_alg».proof.Proof.Gen.KernelIdeal.Value
import proofs.«130787_j27539330302294_2_alg».proof.Proof.Gen.ReferenceIdeal
import proofs.«130787_j27539330302294_2_alg».proof.Proof.Gen.Pre_finite_inputs
import proofs.«130787_j27539330302294_2_alg».proof.Proof.Spec
import proofs.«130787_j27539330302294_2_alg».proof.Proof.Bridge
import proofs.«130787_j27539330302294_2_alg».proof.Proof.Words
import proofs.«130787_j27539330302294_2_alg».proof.Proof.Finite
import proofs.«130787_j27539330302294_2_alg».proof.Proof.KBody
import proofs.«130787_j27539330302294_2_alg».proof.Proof.KRun
import proofs.«130787_j27539330302294_2_alg».proof.Proof.RefOps
import proofs.«130787_j27539330302294_2_alg».proof.Proof.RefRun
import proofs.«130787_j27539330302294_2_alg».proof.Proof.RefArgs
import proofs.«130787_j27539330302294_2_alg».proof.Proof.RefRead
import Idealize.ShloMosaic.Adequacy
import Idealize.ShloMosaic.Init

noncomputable section

namespace Cert.Proof

open Idealize.ShloMosaic Idealize.ShloMosaic.ValueIdx Idealize.ShloMosaic.TcCoe Idealize.SL.Sem Idealize.ShloMosaic.StableHlo

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.RefArgs.arg0_eq _),
      (h c Cert.ReferenceIdeal.main_arg1).trans (Cert.ReferenceIdeal.RefArgs.arg1_eq _)⟩)
    (Cert.ReferenceIdeal.RefRun.run_main (F := Ideal) m ρ)

/-- On finite inputs the four-corner array is the one-hot array, element by element. -/
theorem out_eq (a0 : FVec Ideal Cert.Pre_finite_inputs.S16x1024x1024 .f32) (a1 : FVec Ideal Cert.Pre_finite_inputs.S1048576x16x2 .f32)
    (h : Cert.Pre_finite_inputs.fn (F := Ideal) a0 a1 = (fun _ => 1#1)) : Cert.Bilerp.Rout a0 a1 = Cert.Bilerp.Kout a0 a1 := by
  obtain ⟨h0, h1⟩ := Cert.Bilerp.Finite.of_pre a0 a1 h
  funext i
  exact (Cert.Bilerp.kval_eq_rval Cert.Bilerp.Words.ofNat_eq_and_iff Cert.Bilerp.Words.pix_succ_ne _ _ _ (fun _ _ => h0 _) (h1 _) (h1 _)).symm

/-- Both programs end with the one-hot array of the arguments: the kernel by its blocks, the reference because its
    four-corner array equals it on finite inputs. -/
theorem algebraic : Cert.algebraic_KernelIdeal_ReferenceIdeal := by
  intro m ρ m' ρ' hpre hagree
  refine ⟨fun c => Cert.Bilerp.Kout (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KRun.run Cert.KernelIdeal.KBody.out_apply m ρ, ?_⟩
  refine (θ_run Cert.ReferenceIdeal.defs _ _).mono
    (fun _ h c => ⟨?_, (h c Cert.ReferenceIdeal.main_arg0).trans (Cert.ReferenceIdeal.RefArgs.arg0_eq _),
      (h c Cert.ReferenceIdeal.main_arg1).trans (Cert.ReferenceIdeal.RefArgs.arg1_eq _)⟩)
    (Cert.ReferenceIdeal.RefRun.run_main (F := Ideal) m' ρ')
  refine (h c Cert.ReferenceIdeal.main_v118).trans ((Cert.ReferenceIdeal.RefRead.result_eq _).trans ?_)
  show Cert.Bilerp.Rout (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1)) = _
  rw [(hagree c).1, (hagree c).2]
  exact out_eq _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
